-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S16x1024 : Shape := ⟨2, ![16, 1024]⟩
abbrev S_ : Shape := ⟨0, ![]⟩
abbrev S1x8192x1024 : Shape := ⟨3, ![1, 8192, 1024]⟩

abbrev nBuf : Table → Nat
  | .hbm => 3
  | .local .scVector .vmem => 4
  | _ => 0

abbrev bufTy : (tb : Table) → Fin (nBuf tb) → BufTy
  | .hbm, ⟨0, _⟩ => ⟨S8192x1024, .f32⟩
  | .hbm, ⟨1, _⟩ => ⟨S8192x1024, .f32⟩
  | .hbm, ⟨2, _⟩ => ⟨S1x8192x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_0 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8192x1024_S1x8192x1024 : S8192x1024.ShapeCasts S1x8192x1024
  hcc0_scratch4 : 0 + S_.numel ≤ 8
  hcc0_scratch5 : 1 + S_.numel ≤ 8
  hcc0_scratch6 : 2 + S_.numel ≤ 8
  hcc0_scratch7 : 3 + S_.numel ≤ 8
  hcc0_scratch8 : 4 + S_.numel ≤ 8
  hcc0_scratch9 : 5 + S_.numel ≤ 8
  hcc0_scratch10 : 6 + S_.numel ≤ 8
  hcc0_scratch11 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (16 * r.val))) a + S16x1024.size a ≤ S8192x1024.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11

class Facts : Prop extends Facts₀ where

variable [Facts]
-- ==== ReferenceIdeal.lean ====
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1x8192, .i32⟩
  | .hbm, ⟨3, _⟩ => ⟨S_, .i32⟩
  | .hbm, ⟨4, _⟩ => ⟨S1x8192, .i32⟩
  | .hbm, ⟨5, _⟩ => ⟨S1x8192, .i1⟩
  | .hbm, ⟨6, _⟩ => ⟨S_, .i32⟩
  | .hbm, ⟨7, _⟩ => ⟨S1x8192, .i32⟩
  | .hbm, ⟨8, _⟩ => ⟨S1x8192, .i32⟩
  | .hbm, ⟨9, _⟩ => ⟨S1x8192, .i32⟩
  | .hbm, ⟨10, _⟩ => ⟨S1x8192x1, .i32⟩
  | .hbm, ⟨11, _⟩ => ⟨S1, .i32⟩
  | .hbm, ⟨12, _⟩ => ⟨S_, .i32⟩
  | .hbm, ⟨13, _⟩ => ⟨S1x8192x1, .i32⟩
  | .hbm, ⟨14, _⟩ => ⟨S1x8192x1, .i1⟩
  | .hbm, ⟨15, _⟩ => ⟨S1x1x1, .i32⟩
  | .hbm, ⟨16, _⟩ => ⟨S1x8192x1, .i32⟩
  | .hbm, ⟨17, _⟩ => ⟨S1x8192x1, .i1⟩
  | .hbm, ⟨18, _⟩ => ⟨S1x8192x1, .i1⟩
  | .hbm, ⟨19, _⟩ => ⟨S_, .i1⟩
  | .hbm, ⟨20, _⟩ => ⟨S1x8192, .i1⟩
  | .hbm, ⟨21, _⟩ => ⟨S1x8192x1024, .f32⟩
  | .hbm, ⟨22, _⟩ => ⟨S1x8192x1024, .i1⟩
  | .hbm, ⟨23, _⟩ => ⟨S_, .f32⟩
  | .hbm, ⟨24, _⟩ => ⟨S1x8192x1024, .f32⟩
  | .hbm, ⟨25, _⟩ => ⟨S1x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  shapeCasts_S8192_S1x8192 : S8192.ShapeCasts S1x8192
  bcast_S_S1x8192 : S_.BroadcastsInDim S1x8192 (![] : Fin 0 → Fin S1x8192.rank)
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1_S1x1x1_2 : S1.BroadcastsInDim S1x1x1 (![2] : Fin 1 → Fin S1x1x1.rank)
  bcast_S1x1x1_S1x8192x1_0_1_2 : S1x1x1.BroadcastsInDim S1x8192x1 (![0, 1, 2] : Fin 3 → Fin S1x8192x1.rank)
  reducesTo_S1x8192x1_S1x8192_d2 : S1x8192x1.ReducesTo [2] S1x8192
  h_S_ : 0 < S_.numel
  bcast_S1x8192_S1x8192x1024_0_1 : S1x8192.BroadcastsInDim S1x8192x1024 (![0, 1] : Fin 2 → Fin S1x8192x1024.rank)
  bcast_S_S1x8192x1024 : S_.BroadcastsInDim S1x8192x1024 (![] : Fin 0 → Fin S1x8192x1024.rank)
  gather_S8192x1024_S1x8192x1_S1x8192x1024_2_0_n_n_0_2_11024_wf : GatherDims.WF S8192x1024 S1x8192x1 S1x8192x1024 [2] [0] [] [0] [] 2 ![1, 1024]

variable [Facts₀]

def gather_S8192x1024_S1x8192x1_S1x8192x1024_2_0_n_n_0_2_11024 : GatherDims S8192x1024 S1x8192x1 S1x8192x1024 where
  offsetDims := [2]
  collapsedSliceDims := [0]
  operandBatchingDims := []
  startIndicesBatchingDims := []
  startIndexMap := [0]
  indexVectorDim := 2
  sliceSizes := ![1, 1024]
  wf := gather_S8192x1024_S1x8192x1_S1x8192x1024_2_0_n_n_0_2_11024_wf

class Facts : Prop extends Facts₀ where

variable [Facts]
-- ==== Proof.SetupBits.lean ====
/-
  A copy kernel on the vector subcores: thirty-two tiles (two SparseCores of sixteen), each moving its own
  256 rows of the 8192 x 1024 table into the result array in sixteen chunks of sixteen rows, through four tile
  buffers and eight transfer semaphores. This module fixes what the launch theorem is applied to: the program
  under the names the theorem uses, the ghost state (the launch handshakes' rounds beside the transfer
  counters: the tiles only make local copies and wait for them, so no schedule of their own is needed), the
  chunk rectangles as the program slices them, the fact that the 2 * 16 * 16 chunks partition the table, and
  what each handshake carries: a tile is handed its sixteen chunks of the table and of the result array and
  hands them back with the result's chunks holding the table's contents.
-/
import proofs.«213488_g12206297055238_cont_main3_411_9_alg».proof.Proof.Gen.Kernel
import proofs.«213488_g12206297055238_cont_main3_411_9_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Copy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the tile buffers, the chunks -/

variable (m : (ℓ : Loc nD τ sig) → Buf (Elt F) ℓ) (ρ : Dev nD → PrngReg)

/-- The table, the kernel's result array and the program's result, as the TensorCore names them. -/
abbrev xLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

/-- The table's contents read as contents of the result array (the two arrays have one shape and element type). -/
abbrev asO (d : Dev nD) (f : Buf (Elt F) (xLoc d)) : Buf (Elt F) (oLoc d) := f

abbrev xV : Memref sig .scVector .hbm S8192x1024 .f32 := Memref.whole main_arg0_scv
abbrev oV : Memref sig .scVector .hbm S8192x1024 .f32 := Memref.whole main_v0_scv
abbrev b0 : Memref sig .scVector .vmem S16x1024 .f32 := Memref.whole cc0_scratch0
abbrev b1 : Memref sig .scVector .vmem S16x1024 .f32 := Memref.whole cc0_scratch1
abbrev b2 : Memref sig .scVector .vmem S16x1024 .f32 := Memref.whole cc0_scratch2
abbrev b3 : Memref sig .scVector .vmem S16x1024 .f32 := Memref.whole cc0_scratch3

/-- The tile at grid coordinates `L`: its SparseCore and its number among that SparseCore's tiles. -/
abbrev cV (L : grid0.Coords) : Fin τ.nSC := (L 0).castLE hcore0
abbrev jV (L : grid0.Coords) : Fin τ.nSub := (L 1).castLE hsub0

/-- Sixteen rows of the table from the row the tile computes for the constant `k`, all 1024 columns: the
    rectangle of one chunk, spelt as the program slices it. -/
abbrev cR (L : grid0.Coords) (k : BitVec 32) (h : ∀ a, k0_off1 L k a + S16x1024.size a ≤ S8192x1024.size a) : Rect S8192x1024 :=
  Rect.unit (s := S8192x1024) (k0_off1 L k) S16x1024.size h
/-- The chunk of the table and of the result array as the tile addresses them. -/
abbrev xC (L : grid0.Coords) (k : BitVec 32) (h : ∀ a, k0_off1 L k a + S16x1024.size a ≤ S8192x1024.size a) : Memref sig .scVector .hbm S16x1024 .f32 :=
  (xV : Memref sig .scVector .hbm S8192x1024 .f32).slice (cR L k h) (fun _ => rfl)
abbrev oC (L : grid0.Coords) (k : BitVec 32) (h : ∀ a, k0_off1 L k a + S16x1024.size a ≤ S8192x1024.size a) : Memref sig .scVector .hbm S16x1024 .f32 :=
  (oV : Memref sig .scVector .hbm S8192x1024 .f32).slice (cR L k h) (fun _ => rfl)

/-- Chunk `r` of the tile at `L`: the elements of rows 512 * (L 1) + 256 * (L 0) + 16 * r up to sixteen further. -/
abbrev cSet (L : grid0.Coords) (r : Fin 16) : Finset S8192x1024.Idx := (cR L (BitVec.ofNat 32 (16 * r.val)) (k0_off1_inb L r)).set

theorem set_xC (L : grid0.Coords) (k : BitVec 32) (h : ∀ a, k0_off1 L k a + S16x1024.size a ≤ S8192x1024.size a) :
    (xC L k h).view.set = (cR L k h).set := View.set_slice_whole _ _
theorem set_oC (L : grid0.Coords) (k : BitVec 32) (h : ∀ a, k0_off1 L k a + S16x1024.size a ≤ S8192x1024.size a) :
    (oC L k h).view.set = (cR L k h).set := View.set_slice_whole _ _

/-- A chunk held as the tile addresses it is that chunk of the TensorCore's array. -/
theorem pts_xC (d : Dev nD) (L : grid0.Coords) (k : BitVec 32) (h : ∀ a, k0_off1 L k a + S16x1024.size a ≤ S8192x1024.size a) (f : Buf (Elt F) (xLoc d)) :
    ((xC L k h).view.loc (V d (cV L) (jV L)) ↦[(xC L k h).view.set]{fullShare} f : sProp 𝕄) = xLoc d ↦[(cR L k h).set]{fullShare} f := by
  rw [set_xC]
theorem pts_oC (d : Dev nD) (L : grid0.Coords) (k : BitVec 32) (h : ∀ a, k0_off1 L k a + S16x1024.size a ≤ S8192x1024.size a) (f : Buf (Elt F) (oLoc d)) :
    ((oC L k h).view.loc (V d (cV L) (jV L)) ↦[(oC L k h).view.set]{fullShare} f : sProp 𝕄) = oLoc d ↦[(cR L k h).set]{fullShare} f := by
  rw [set_oC]

/-! ## The chunks partition the table -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- One chunk per SparseCore, tile and chunk number. -/
abbrev CIx : Type := Fin (grid0.bound 0) × Fin (grid0.bound 1) × Fin 16
abbrev cSetOf (t : CIx) : Finset S8192x1024.Idx := cSet (coordsV t.1 t.2.1) t.2.2

/-- The first row of a chunk: tile `s` of SparseCore `c` is worker 2 * s + c, whose rows start at 256 * (2 * s + c). -/
theorem off_row (c : Fin (grid0.bound 0)) (s : Fin (grid0.bound 1)) (r : Fin 16) :
    k0_off1 (coordsV c s) (BitVec.ofNat 32 (16 * r.val)) = ![512 * s.val + 256 * c.val + 16 * r.val, 0] :=
  k0_off1_eq (coordsV c s) r

/-- Two different chunks start sixteen or more rows apart, so they share no element. -/
theorem chunks_disjoint : ∀ t ∈ (Finset.univ : Finset CIx), ∀ t' ∈ (Finset.univ : Finset CIx), t ≠ t' → Disjoint (cSetOf t) (cSetOf t') := by
  rintro ⟨c, s, r⟩ - ⟨c', s', r'⟩ - hne
  have hc : c.val < 2 := c.isLt
  have hc' : c'.val < 2 := c'.isLt
  have hs : s.val < 16 := s.isLt
  have hs' : s'.val < 16 := s'.isLt
  have h3 : ¬ (c.val = c'.val ∧ s.val = s'.val ∧ r.val = r'.val) :=
    fun ⟨h1, h2, h3⟩ => hne (Prod.ext (Fin.ext h1) (Prod.ext (Fin.ext h2) (Fin.ext h3)))
  refine Rect.unit_disjoint (0 : Fin 2) ?_
  rw [off_row, off_row]
  show 512 * s.val + 256 * c.val + 16 * r.val + 16 ≤ 512 * s'.val + 256 * c'.val + 16 * r'.val
    ∨ 512 * s'.val + 256 * c'.val + 16 * r'.val + 16 ≤ 512 * s.val + 256 * c.val + 16 * r.val
  omega

/-- Every row lies in a chunk: row `n` in chunk (n mod 256) / 16 of tile n / 512 of SparseCore (n / 256) mod 2. -/
theorem chunks_cover : (Finset.univ : Finset CIx).biUnion cSetOf = Finset.univ := by
  ext j
  simp only [Finset.mem_biUnion, Finset.mem_univ, true_and, iff_true]
  have h0 : (j 0).val < 8192 := (j 0).isLt
  have h1 : (j 1).val < 1024 := (j 1).isLt
  refine ⟨(⟨(j 0).val / 256 % 2, Nat.mod_lt _ (by decide)⟩, ⟨(j 0).val / 512, by show (j 0).val / 512 < 16; omega⟩,
    ⟨(j 0).val % 256 / 16, by omega⟩), Rect.mem_set_unit.mpr fun a => ?_⟩
  rw [off_row]
  match a with
  | 0 =>
    show 512 * ((j 0).val / 512) + 256 * ((j 0).val / 256 % 2) + 16 * ((j 0).val % 256 / 16) ≤ (j 0).val
      ∧ (j 0).val < 512 * ((j 0).val / 512) + 256 * ((j 0).val / 256 % 2) + 16 * ((j 0).val % 256 / 16) + 16
    omega
  | 1 =>
    show 0 ≤ (j 1).val ∧ (j 1).val < 0 + 1024
    omega

/-- The table (or the result array) whole is its chunks, SparseCore by SparseCore, tile by tile. -/
theorem xChunks (d : Dev nD) (f : Buf (Elt F) (xLoc d)) :
    (xLoc d ↦{fullShare} f : sProp 𝕄) = bigSep Finset.univ fun c : Fin (grid0.bound 0) => bigSep Finset.univ fun s : Fin (grid0.bound 1) =>
      bigSep Finset.univ fun r : Fin 16 => xLoc d ↦[cSet (coordsV c s) r]{fullShare} f := by
  symm
  calc _ = bigSep (Finset.univ : Finset CIx) fun t => (xLoc d ↦[cSetOf t]{fullShare} f : sProp 𝕄) := by
        rw [← Finset.univ_product_univ, SparseCore.bigSep_product]
        refine bigSep_congr fun c _ => ?_
        rw [← Finset.univ_product_univ, SparseCore.bigSep_product]
    _ = (xLoc d ↦[(Finset.univ : Finset CIx).biUnion cSetOf]{fullShare} f : sProp 𝕄) :=
        (pointsTo_biUnion Finset.univ (ℓ := xLoc d) cSetOf chunks_disjoint).symm
    _ = _ := by rw [chunks_cover]; try rfl
theorem oChunks (d : Dev nD) (f : Buf (Elt F) (oLoc d)) :
    (oLoc d ↦{fullShare} f : sProp 𝕄) = bigSep Finset.univ fun c : Fin (grid0.bound 0) => bigSep Finset.univ fun s : Fin (grid0.bound 1) =>
      bigSep Finset.univ fun r : Fin 16 => oLoc d ↦[cSet (coordsV c s) r]{fullShare} f := by
  symm
  calc _ = bigSep (Finset.univ : Finset CIx) fun t => (oLoc d ↦[cSetOf t]{fullShare} f : sProp 𝕄) := by
        rw [← Finset.univ_product_univ, SparseCore.bigSep_product]
        refine bigSep_congr fun c _ => ?_
        rw [← Finset.univ_product_univ, SparseCore.bigSep_product]
    _ = (oLoc d ↦[(Finset.univ : Finset CIx).biUnion cSetOf]{fullShare} f : sProp 𝕄) :=
        (pointsTo_biUnion Finset.univ (ℓ := oLoc d) cSetOf chunks_disjoint).symm
    _ = _ := by rw [chunks_cover]; try rfl

/-! ## What the handshakes carry -/

/-- What a tile is handed: its sixteen chunks of the table, and of the result array at its launch contents. -/
def tileIn (d : Dev nD) (L : grid0.Coords) : sProp 𝕄 :=
  bigSep Finset.univ fun r : Fin 16 => iprop((xLoc d ↦[cSet L r]{fullShare} m (xLoc d)) ∗ oLoc d ↦[cSet L r]{fullShare} m (oLoc d))
/-- What it hands back: the table's chunks unchanged, the result array's chunks holding the table's contents. -/
def tileOut (d : Dev nD) (L : grid0.Coords) : sProp 𝕄 :=
  bigSep Finset.univ fun r : Fin 16 => iprop((xLoc d ↦[cSet L r]{fullShare} m (xLoc d)) ∗ oLoc d ↦[cSet L r]{fullShare} asO d (m (xLoc d)))

/-- The one call hands each SparseCore its sixteen tiles' chunks, each tile its own, and brings them back copied. -/
def P : (K (F := F)).Pay (nD := nD) (Val := Elt F) (Name := ℕ) (U := UU) where
  st := fun q d c => match q with
    | 0 => bigSep Finset.univ fun s : Fin (grid0.bound 1) => tileIn m d (coordsV (Fin.cast nCore_zero c) s)
  dn := fun q d c => match q with
    | 0 => bigSep Finset.univ fun s : Fin (grid0.bound 1) => tileOut m d (coordsV (Fin.cast nCore_zero c) s)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance P_storable : (P (F := F) m).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

end Cert.Kernel.Copy

end
-- ==== Proof.BodyBits.lean ====
/-
  One tile's task. The tile is handed its sixteen chunks of the table and of the result array; its four tile
  buffers and eight transfer semaphores are among its scoped storage. The body is a straight line: four loads
  are started; then for each chunk in turn the tile waits for the chunk's load, starts its store out of the same
  buffer and, while chunks remain, waits for that store before starting the next load into the buffer; the last
  four stores are waited for at the end. No buffer is read or written while a transfer on it is pending, so
  every chunk of the result array ends holding the table's contents on that chunk's elements.
-/
import proofs.«213488_g12206297055238_cont_main3_411_9_alg».proof.Proof.SetupBits
import Idealize.ShloMosaic.Lib.Writes

noncomputable section

namespace Cert.Kernel.Copy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Sixteen and eight and four things, one by one -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  repeat rw [SparseCore.bigSep_insert' (by decide)]
  rw [bigSep_singleton]
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]
theorem bigSep_fin4 (Φ : Fin 4 → sProp 𝕄) :
    bigSep Finset.univ Φ = iprop(Φ 0 ∗ Φ 1 ∗ Φ 2 ∗ Φ 3) := by
  rw [show (Finset.univ : Finset (Fin 4)) = {0, 1, 2, 3} by decide]
  repeat rw [SparseCore.bigSep_insert' (by decide)]
  rw [bigSep_singleton]

/-! ## The tile's semaphores and buffers among its scoped storage -/

/-- The kernel's eight transfer semaphores: four for the loads, four for the stores. -/
abbrev semOf : Fin 8 → SemLoc sig
  | 0 => .dma cc0_scratch4.sem | 1 => .dma cc0_scratch5.sem | 2 => .dma cc0_scratch6.sem | 3 => .dma cc0_scratch7.sem
  | 4 => .dma cc0_scratch8.sem | 5 => .dma cc0_scratch9.sem | 6 => .dma cc0_scratch10.sem | 7 => .dma cc0_scratch11.sem
theorem semOf_inj : Function.Injective semOf := by decide
theorem semOf_scoped : ∀ k : Fin 8, (semOf k).isScoped .scVector = true := by decide

def semCells (d : Dev nD) (c : Fin τ.nSC) (i : Fin τ.nSub) : Finset (GSem nD τ sig) :=
  Finset.univ.map ⟨fun k : Fin 8 => ((V d c i, semOf k) : GSem nD τ sig), fun _ _ e => semOf_inj (Prod.mk.inj e).2⟩
theorem semCells_sub (d : Dev nD) (c : Fin τ.nSC) (i : Fin τ.nSub) : semCells d c i ⊆ ownCells (V d c i) := by
  intro g hg
  obtain ⟨k, -, rfl⟩ := Finset.mem_map.mp hg
  exact mem_ownCells.mpr ⟨rfl, semOf_scoped k⟩

/-- The eight semaphores' counters, at zero, are among the tile's own cells. -/
theorem ownSems0_V (d : Dev nD) (c : Fin τ.nSC) (i : Fin τ.nSub) :
    (ownSems0 (V d c i) : sProp 𝕄)
      = iprop((semVal (V d c i, SemLoc.dma cc0_scratch4.sem) 0 ∗ semVal (V d c i, SemLoc.dma cc0_scratch5.sem) 0 ∗ semVal (V d c i, SemLoc.dma cc0_scratch6.sem) 0 ∗ semVal (V d c i, SemLoc.dma cc0_scratch7.sem) 0 ∗ semVal (V d c i, SemLoc.dma cc0_scratch8.sem) 0 ∗ semVal (V d c i, SemLoc.dma cc0_scratch9.sem) 0 ∗ semVal (V d c i, SemLoc.dma cc0_scratch10.sem) 0 ∗ semVal (V d c i, SemLoc.dma cc0_scratch11.sem) 0)
          ∗ bigSep (ownCells (V d c i) \ semCells d c i) fun g => semVal g 0) := by
  unfold SparseCore.Cfg.ownSems0
  rw [SparseCore.bigSep_sdiff_split' (semCells_sub d c i), semCells, bigSep_map, bigSep_fin8]
  rfl

/-- The kernel's four tile buffers. -/
abbrev bufOf : Fin 4 → Ref sig .scVector
  | 0 => cc0_scratch0 | 1 => cc0_scratch1 | 2 => cc0_scratch2 | 3 => cc0_scratch3
theorem bufOf_inj : Function.Injective bufOf := by decide

def bufRefs (c : Fin τ.nSC) (i : Fin τ.nSub) : Finset (DevRef τ sig) :=
  Finset.univ.map ⟨fun k : Fin 4 => (Proc.scVector c i).devRef (bufOf k), fun _ _ e => bufOf_inj (Proc.devRef_injective _ e)⟩
theorem bufRefs_sub (c : Fin τ.nSC) (i : Fin τ.nSub) : bufRefs c i ⊆ ownRefs (τ := τ) (.scVector c i) := by
  intro b hb
  obtain ⟨k, -, rfl⟩ := Finset.mem_map.mp hb
  have hk : ((Proc.scVector c i).devRef (bufOf k)).owner = .proc (Proc.scVector c i) := by
    match k with | 0 => rfl | 1 => rfl | 2 => rfl | 3 => rfl
  exact SparseCore.Cfg.mem_ownRefs_of_owner hk

/-- The four buffers, at some contents, are among the tile's own storage. -/
theorem ownBufs_V (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f))
          ∗ bigSep (ownRefs (τ := τ) (.scVector c i) \ bufRefs c i) fun b => iprop(∃ f, ((d, b) : Loc nD τ sig) ↦{fullShare} f)) := by
  unfold SparseCore.Cfg.ownBufs
  rw [SparseCore.bigSep_sdiff_split' (bufRefs_sub c i), bufRefs, bigSep_map, bigSep_fin4]
  rfl

/-! ## The tile's chunks as the tile addresses them -/

variable (m : (ℓ : Loc nD τ sig) → Buf (Elt F) ℓ)

/-- Chunk `r` of the tile, whose row offset the program computes from the constant `k` = 16 * r: held as the
    TensorCore names the arrays, or as the tile addresses the chunk. -/
theorem chunk_exec (d : Dev nD) (L : grid0.Coords) (r : Fin 16) (k : BitVec 32) (hk : k = BitVec.ofNat 32 (16 * r.val))
    (h : ∀ a, k0_off1 L k a + S16x1024.size a ≤ S8192x1024.size a) (fx : Buf (Elt F) (xLoc d)) (fo : Buf (Elt F) (oLoc d)) :
    (iprop((xLoc d ↦[cSet L r]{fullShare} fx) ∗ oLoc d ↦[cSet L r]{fullShare} fo) : sProp 𝕄)
      = iprop(((xC L k h).view.loc (V d (cV L) (jV L)) ↦[(xC L k h).view.set]{fullShare} fx)
          ∗ (oC L k h).view.loc (V d (cV L) (jV L)) ↦[(oC L k h).view.set]{fullShare} fo) := by
  subst hk
  rw [pts_xC, pts_oC]

omit m in
theorem sep_congr' {A A' B B' : sProp 𝕄} (h1 : A = A') (h2 : B = B') : (iprop(A ∗ B) : sProp 𝕄) = iprop(A' ∗ B') := by rw [h1, h2]

theorem tileIn_exec (d : Dev nD) (L : grid0.Coords) :
    tileIn m d L = iprop((((xC L 0#32 (k0_off1_inb L 0)).view.loc (V d (cV L) (jV L)) ↦[(xC L 0#32 (k0_off1_inb L 0)).view.set]{fullShare} m (xLoc d)) ∗ ((oC L 0#32 (k0_off1_inb L 0)).view.loc (V d (cV L) (jV L)) ↦[(oC L 0#32 (k0_off1_inb L 0)).view.set]{fullShare} m (oLoc d)))
        ∗ (((xC L 16#32 (k0_off1_inb L 1)).view.loc (V d (cV L) (jV L)) ↦[(xC L 16#32 (k0_off1_inb L 1)).view.set]{fullShare} m (xLoc d)) ∗ ((oC L 16#32 (k0_off1_inb L 1)).view.loc (V d (cV L) (jV L)) ↦[(oC L 16#32 (k0_off1_inb L 1)).view.set]{fullShare} m (oLoc d)))
        ∗ (((xC L 32#32 (k0_off1_inb L 2)).view.loc (V d (cV L) (jV L)) ↦[(xC L 32#32 (k0_off1_inb L 2)).view.set]{fullShare} m (xLoc d)) ∗ ((oC L 32#32 (k0_off1_inb L 2)).view.loc (V d (cV L) (jV L)) ↦[(oC L 32#32 (k0_off1_inb L 2)).view.set]{fullShare} m (oLoc d)))
        ∗ (((xC L 48#32 (k0_off1_inb L 3)).view.loc (V d (cV L) (jV L)) ↦[(xC L 48#32 (k0_off1_inb L 3)).view.set]{fullShare} m (xLoc d)) ∗ ((oC L 48#32 (k0_off1_inb L 3)).view.loc (V d (cV L) (jV L)) ↦[(oC L 48#32 (k0_off1_inb L 3)).view.set]{fullShare} m (oLoc d)))
        ∗ (((xC L 64#32 (k0_off1_inb L 4)).view.loc (V d (cV L) (jV L)) ↦[(xC L 64#32 (k0_off1_inb L 4)).view.set]{fullShare} m (xLoc d)) ∗ ((oC L 64#32 (k0_off1_inb L 4)).view.loc (V d (cV L) (jV L)) ↦[(oC L 64#32 (k0_off1_inb L 4)).view.set]{fullShare} m (oLoc d)))
        ∗ (((xC L 80#32 (k0_off1_inb L 5)).view.loc (V d (cV L) (jV L)) ↦[(xC L 80#32 (k0_off1_inb L 5)).view.set]{fullShare} m (xLoc d)) ∗ ((oC L 80#32 (k0_off1_inb L 5)).view.loc (V d (cV L) (jV L)) ↦[(oC L 80#32 (k0_off1_inb L 5)).view.set]{fullShare} m (oLoc d)))
        ∗ (((xC L 96#32 (k0_off1_inb L 6)).view.loc (V d (cV L) (jV L)) ↦[(xC L 96#32 (k0_off1_inb L 6)).view.set]{fullShare} m (xLoc d)) ∗ ((oC L 96#32 (k0_off1_inb L 6)).view.loc (V d (cV L) (jV L)) ↦[(oC L 96#32 (k0_off1_inb L 6)).view.set]{fullShare} m (oLoc d)))
        ∗ (((xC L 112#32 (k0_off1_inb L 7)).view.loc (V d (cV L) (jV L)) ↦[(xC L 112#32 (k0_off1_inb L 7)).view.set]{fullShare} m (xLoc d)) ∗ ((oC L 112#32 (k0_off1_inb L 7)).view.loc (V d (cV L) (jV L)) ↦[(oC L 112#32 (k0_off1_inb L 7)).view.set]{fullShare} m (oLoc d)))
        ∗ (((xC L 128#32 (k0_off1_inb L 8)).view.loc (V d (cV L) (jV L)) ↦[(xC L 128#32 (k0_off1_inb L 8)).view.set]{fullShare} m (xLoc d)) ∗ ((oC L 128#32 (k0_off1_inb L 8)).view.loc (V d (cV L) (jV L)) ↦[(oC L 128#32 (k0_off1_inb L 8)).view.set]{fullShare} m (oLoc d)))
        ∗ (((xC L 144#32 (k0_off1_inb L 9)).view.loc (V d (cV L) (jV L)) ↦[(xC L 144#32 (k0_off1_inb L 9)).view.set]{fullShare} m (xLoc d)) ∗ ((oC L 144#32 (k0_off1_inb L 9)).view.loc (V d (cV L) (jV L)) ↦[(oC L 144#32 (k0_off1_inb L 9)).view.set]{fullShare} m (oLoc d)))
        ∗ (((xC L 160#32 (k0_off1_inb L 10)).view.loc (V d (cV L) (jV L)) ↦[(xC L 160#32 (k0_off1_inb L 10)).view.set]{fullShare} m (xLoc d)) ∗ ((oC L 160#32 (k0_off1_inb L 10)).view.loc (V d (cV L) (jV L)) ↦[(oC L 160#32 (k0_off1_inb L 10)).view.set]{fullShare} m (oLoc d)))
        ∗ (((xC L 176#32 (k0_off1_inb L 11)).view.loc (V d (cV L) (jV L)) ↦[(xC L 176#32 (k0_off1_inb L 11)).view.set]{fullShare} m (xLoc d)) ∗ ((oC L 176#32 (k0_off1_inb L 11)).view.loc (V d (cV L) (jV L)) ↦[(oC L 176#32 (k0_off1_inb L 11)).view.set]{fullShare} m (oLoc d)))
        ∗ (((xC L 192#32 (k0_off1_inb L 12)).view.loc (V d (cV L) (jV L)) ↦[(xC L 192#32 (k0_off1_inb L 12)).view.set]{fullShare} m (xLoc d)) ∗ ((oC L 192#32 (k0_off1_inb L 12)).view.loc (V d (cV L) (jV L)) ↦[(oC L 192#32 (k0_off1_inb L 12)).view.set]{fullShare} m (oLoc d)))
        ∗ (((xC L 208#32 (k0_off1_inb L 13)).view.loc (V d (cV L) (jV L)) ↦[(xC L 208#32 (k0_off1_inb L 13)).view.set]{fullShare} m (xLoc d)) ∗ ((oC L 208#32 (k0_off1_inb L 13)).view.loc (V d (cV L) (jV L)) ↦[(oC L 208#32 (k0_off1_inb L 13)).view.set]{fullShare} m (oLoc d)))
        ∗ (((xC L 224#32 (k0_off1_inb L 14)).view.loc (V d (cV L) (jV L)) ↦[(xC L 224#32 (k0_off1_inb L 14)).view.set]{fullShare} m (xLoc d)) ∗ ((oC L 224#32 (k0_off1_inb L 14)).view.loc (V d (cV L) (jV L)) ↦[(oC L 224#32 (k0_off1_inb L 14)).view.set]{fullShare} m (oLoc d)))
        ∗ (((xC L 240#32 (k0_off1_inb L 15)).view.loc (V d (cV L) (jV L)) ↦[(xC L 240#32 (k0_off1_inb L 15)).view.set]{fullShare} m (xLoc d)) ∗ ((oC L 240#32 (k0_off1_inb L 15)).view.loc (V d (cV L) (jV L)) ↦[(oC L 240#32 (k0_off1_inb L 15)).view.set]{fullShare} m (oLoc d)))) := by
  unfold tileIn
  refine (bigSep_fin16 _).trans ?_
  exact sep_congr' (chunk_exec d L 0 0#32 (by decide) (k0_off1_inb L 0) (m (xLoc d)) (m (oLoc d)))
    (sep_congr' (chunk_exec d L 1 16#32 (by decide) (k0_off1_inb L 1) (m (xLoc d)) (m (oLoc d)))
    (sep_congr' (chunk_exec d L 2 32#32 (by decide) (k0_off1_inb L 2) (m (xLoc d)) (m (oLoc d)))
    (sep_congr' (chunk_exec d L 3 48#32 (by decide) (k0_off1_inb L 3) (m (xLoc d)) (m (oLoc d)))
    (sep_congr' (chunk_exec d L 4 64#32 (by decide) (k0_off1_inb L 4) (m (xLoc d)) (m (oLoc d)))
    (sep_congr' (chunk_exec d L 5 80#32 (by decide) (k0_off1_inb L 5) (m (xLoc d)) (m (oLoc d)))
    (sep_congr' (chunk_exec d L 6 96#32 (by decide) (k0_off1_inb L 6) (m (xLoc d)) (m (oLoc d)))
    (sep_congr' (chunk_exec d L 7 112#32 (by decide) (k0_off1_inb L 7) (m (xLoc d)) (m (oLoc d)))
    (sep_congr' (chunk_exec d L 8 128#32 (by decide) (k0_off1_inb L 8) (m (xLoc d)) (m (oLoc d)))
    (sep_congr' (chunk_exec d L 9 144#32 (by decide) (k0_off1_inb L 9) (m (xLoc d)) (m (oLoc d)))
    (sep_congr' (chunk_exec d L 10 160#32 (by decide) (k0_off1_inb L 10) (m (xLoc d)) (m (oLoc d)))
    (sep_congr' (chunk_exec d L 11 176#32 (by decide) (k0_off1_inb L 11) (m (xLoc d)) (m (oLoc d)))
    (sep_congr' (chunk_exec d L 12 192#32 (by decide) (k0_off1_inb L 12) (m (xLoc d)) (m (oLoc d)))
    (sep_congr' (chunk_exec d L 13 208#32 (by decide) (k0_off1_inb L 13) (m (xLoc d)) (m (oLoc d)))
    (sep_congr' (chunk_exec d L 14 224#32 (by decide) (k0_off1_inb L 14) (m (xLoc d)) (m (oLoc d)))
    (chunk_exec d L 15 240#32 (by decide) (k0_off1_inb L 15) (m (xLoc d)) (m (oLoc d)))))))))))))))))
theorem tileOut_exec (d : Dev nD) (L : grid0.Coords) :
    tileOut m d L = iprop((((xC L 0#32 (k0_off1_inb L 0)).view.loc (V d (cV L) (jV L)) ↦[(xC L 0#32 (k0_off1_inb L 0)).view.set]{fullShare} m (xLoc d)) ∗ ((oC L 0#32 (k0_off1_inb L 0)).view.loc (V d (cV L) (jV L)) ↦[(oC L 0#32 (k0_off1_inb L 0)).view.set]{fullShare} asO d (m (xLoc d))))
        ∗ (((xC L 16#32 (k0_off1_inb L 1)).view.loc (V d (cV L) (jV L)) ↦[(xC L 16#32 (k0_off1_inb L 1)).view.set]{fullShare} m (xLoc d)) ∗ ((oC L 16#32 (k0_off1_inb L 1)).view.loc (V d (cV L) (jV L)) ↦[(oC L 16#32 (k0_off1_inb L 1)).view.set]{fullShare} asO d (m (xLoc d))))
        ∗ (((xC L 32#32 (k0_off1_inb L 2)).view.loc (V d (cV L) (jV L)) ↦[(xC L 32#32 (k0_off1_inb L 2)).view.set]{fullShare} m (xLoc d)) ∗ ((oC L 32#32 (k0_off1_inb L 2)).view.loc (V d (cV L) (jV L)) ↦[(oC L 32#32 (k0_off1_inb L 2)).view.set]{fullShare} asO d (m (xLoc d))))
        ∗ (((xC L 48#32 (k0_off1_inb L 3)).view.loc (V d (cV L) (jV L)) ↦[(xC L 48#32 (k0_off1_inb L 3)).view.set]{fullShare} m (xLoc d)) ∗ ((oC L 48#32 (k0_off1_inb L 3)).view.loc (V d (cV L) (jV L)) ↦[(oC L 48#32 (k0_off1_inb L 3)).view.set]{fullShare} asO d (m (xLoc d))))
        ∗ (((xC L 64#32 (k0_off1_inb L 4)).view.loc (V d (cV L) (jV L)) ↦[(xC L 64#32 (k0_off1_inb L 4)).view.set]{fullShare} m (xLoc d)) ∗ ((oC L 64#32 (k0_off1_inb L 4)).view.loc (V d (cV L) (jV L)) ↦[(oC L 64#32 (k0_off1_inb L 4)).view.set]{fullShare} asO d (m (xLoc d))))
        ∗ (((xC L 80#32 (k0_off1_inb L 5)).view.loc (V d (cV L) (jV L)) ↦[(xC L 80#32 (k0_off1_inb L 5)).view.set]{fullShare} m (xLoc d)) ∗ ((oC L 80#32 (k0_off1_inb L 5)).view.loc (V d (cV L) (jV L)) ↦[(oC L 80#32 (k0_off1_inb L 5)).view.set]{fullShare} asO d (m (xLoc d))))
        ∗ (((xC L 96#32 (k0_off1_inb L 6)).view.loc (V d (cV L) (jV L)) ↦[(xC L 96#32 (k0_off1_inb L 6)).view.set]{fullShare} m (xLoc d)) ∗ ((oC L 96#32 (k0_off1_inb L 6)).view.loc (V d (cV L) (jV L)) ↦[(oC L 96#32 (k0_off1_inb L 6)).view.set]{fullShare} asO d (m (xLoc d))))
        ∗ (((xC L 112#32 (k0_off1_inb L 7)).view.loc (V d (cV L) (jV L)) ↦[(xC L 112#32 (k0_off1_inb L 7)).view.set]{fullShare} m (xLoc d)) ∗ ((oC L 112#32 (k0_off1_inb L 7)).view.loc (V d (cV L) (jV L)) ↦[(oC L 112#32 (k0_off1_inb L 7)).view.set]{fullShare} asO d (m (xLoc d))))
        ∗ (((xC L 128#32 (k0_off1_inb L 8)).view.loc (V d (cV L) (jV L)) ↦[(xC L 128#32 (k0_off1_inb L 8)).view.set]{fullShare} m (xLoc d)) ∗ ((oC L 128#32 (k0_off1_inb L 8)).view.loc (V d (cV L) (jV L)) ↦[(oC L 128#32 (k0_off1_inb L 8)).view.set]{fullShare} asO d (m (xLoc d))))
        ∗ (((xC L 144#32 (k0_off1_inb L 9)).view.loc (V d (cV L) (jV L)) ↦[(xC L 144#32 (k0_off1_inb L 9)).view.set]{fullShare} m (xLoc d)) ∗ ((oC L 144#32 (k0_off1_inb L 9)).view.loc (V d (cV L) (jV L)) ↦[(oC L 144#32 (k0_off1_inb L 9)).view.set]{fullShare} asO d (m (xLoc d))))
        ∗ (((xC L 160#32 (k0_off1_inb L 10)).view.loc (V d (cV L) (jV L)) ↦[(xC L 160#32 (k0_off1_inb L 10)).view.set]{fullShare} m (xLoc d)) ∗ ((oC L 160#32 (k0_off1_inb L 10)).view.loc (V d (cV L) (jV L)) ↦[(oC L 160#32 (k0_off1_inb L 10)).view.set]{fullShare} asO d (m (xLoc d))))
        ∗ (((xC L 176#32 (k0_off1_inb L 11)).view.loc (V d (cV L) (jV L)) ↦[(xC L 176#32 (k0_off1_inb L 11)).view.set]{fullShare} m (xLoc d)) ∗ ((oC L 176#32 (k0_off1_inb L 11)).view.loc (V d (cV L) (jV L)) ↦[(oC L 176#32 (k0_off1_inb L 11)).view.set]{fullShare} asO d (m (xLoc d))))
        ∗ (((xC L 192#32 (k0_off1_inb L 12)).view.loc (V d (cV L) (jV L)) ↦[(xC L 192#32 (k0_off1_inb L 12)).view.set]{fullShare} m (xLoc d)) ∗ ((oC L 192#32 (k0_off1_inb L 12)).view.loc (V d (cV L) (jV L)) ↦[(oC L 192#32 (k0_off1_inb L 12)).view.set]{fullShare} asO d (m (xLoc d))))
        ∗ (((xC L 208#32 (k0_off1_inb L 13)).view.loc (V d (cV L) (jV L)) ↦[(xC L 208#32 (k0_off1_inb L 13)).view.set]{fullShare} m (xLoc d)) ∗ ((oC L 208#32 (k0_off1_inb L 13)).view.loc (V d (cV L) (jV L)) ↦[(oC L 208#32 (k0_off1_inb L 13)).view.set]{fullShare} asO d (m (xLoc d))))
        ∗ (((xC L 224#32 (k0_off1_inb L 14)).view.loc (V d (cV L) (jV L)) ↦[(xC L 224#32 (k0_off1_inb L 14)).view.set]{fullShare} m (xLoc d)) ∗ ((oC L 224#32 (k0_off1_inb L 14)).view.loc (V d (cV L) (jV L)) ↦[(oC L 224#32 (k0_off1_inb L 14)).view.set]{fullShare} asO d (m (xLoc d))))
        ∗ (((xC L 240#32 (k0_off1_inb L 15)).view.loc (V d (cV L) (jV L)) ↦[(xC L 240#32 (k0_off1_inb L 15)).view.set]{fullShare} m (xLoc d)) ∗ ((oC L 240#32 (k0_off1_inb L 15)).view.loc (V d (cV L) (jV L)) ↦[(oC L 240#32 (k0_off1_inb L 15)).view.set]{fullShare} asO d (m (xLoc d))))) := by
  unfold tileOut
  refine (bigSep_fin16 _).trans ?_
  exact sep_congr' (chunk_exec d L 0 0#32 (by decide) (k0_off1_inb L 0) (m (xLoc d)) (asO d (m (xLoc d))))
    (sep_congr' (chunk_exec d L 1 16#32 (by decide) (k0_off1_inb L 1) (m (xLoc d)) (asO d (m (xLoc d))))
    (sep_congr' (chunk_exec d L 2 32#32 (by decide) (k0_off1_inb L 2) (m (xLoc d)) (asO d (m (xLoc d))))
    (sep_congr' (chunk_exec d L 3 48#32 (by decide) (k0_off1_inb L 3) (m (xLoc d)) (asO d (m (xLoc d))))
    (sep_congr' (chunk_exec d L 4 64#32 (by decide) (k0_off1_inb L 4) (m (xLoc d)) (asO d (m (xLoc d))))
    (sep_congr' (chunk_exec d L 5 80#32 (by decide) (k0_off1_inb L 5) (m (xLoc d)) (asO d (m (xLoc d))))
    (sep_congr' (chunk_exec d L 6 96#32 (by decide) (k0_off1_inb L 6) (m (xLoc d)) (asO d (m (xLoc d))))
    (sep_congr' (chunk_exec d L 7 112#32 (by decide) (k0_off1_inb L 7) (m (xLoc d)) (asO d (m (xLoc d))))
    (sep_congr' (chunk_exec d L 8 128#32 (by decide) (k0_off1_inb L 8) (m (xLoc d)) (asO d (m (xLoc d))))
    (sep_congr' (chunk_exec d L 9 144#32 (by decide) (k0_off1_inb L 9) (m (xLoc d)) (asO d (m (xLoc d))))
    (sep_congr' (chunk_exec d L 10 160#32 (by decide) (k0_off1_inb L 10) (m (xLoc d)) (asO d (m (xLoc d))))
    (sep_congr' (chunk_exec d L 11 176#32 (by decide) (k0_off1_inb L 11) (m (xLoc d)) (asO d (m (xLoc d))))
    (sep_congr' (chunk_exec d L 12 192#32 (by decide) (k0_off1_inb L 12) (m (xLoc d)) (asO d (m (xLoc d))))
    (sep_congr' (chunk_exec d L 13 208#32 (by decide) (k0_off1_inb L 13) (m (xLoc d)) (asO d (m (xLoc d))))
    (sep_congr' (chunk_exec d L 14 224#32 (by decide) (k0_off1_inb L 14) (m (xLoc d)) (asO d (m (xLoc d))))
    (chunk_exec d L 15 240#32 (by decide) (k0_off1_inb L 15) (m (xLoc d)) (asO d (m (xLoc d))))))))))))))))))

/-- A chunk's round trip: the table's chunk is read into a tile buffer (written whole), the buffer is read back
    and written through the same rectangle of the result array. On the chunk's elements the result array then
    holds the table's contents, whatever the buffer and the result array held before. -/
theorem chunk_copied (d : Dev nD) (L : grid0.Coords) (k : BitVec 32) (h : ∀ a, k0_off1 L k a + S16x1024.size a ≤ S8192x1024.size a)
    (bv : View sig .scVector .vmem S16x1024 .f32) (g : bv.ty.Contents (Elt F)) (fo : Buf (Elt F) (oLoc d)) :
    ∀ i ∈ (oC L k h).view.set,
      ((oC L k h).view.writes (Elt F) fo [⟨Rect.whole S16x1024,
          ReadAs.same.apply (View.read (Elt F) bv (View.write (Elt F) bv g
            (ReadAs.same.apply (View.read (Elt F) (xC L k h).view (m (xLoc d)))) Finset.univ))⟩]) i
        = asO d (m (xLoc d)) i := by
  intro i hi
  obtain ⟨y, -, rfl⟩ := Finset.mem_map.mp hi
  simp only [ReadAs.apply_same, View.read_write_univ]
  have e := View.read_writes_cons_emb (oC L k h).view fo (Rect.whole S16x1024) (View.read (Elt F) (xC L k h).view (m (xLoc d))) [] y
  rw [Rect.emb_whole_apply, View.read_apply, View.read_apply] at e
  simp only [cast_eq] at e
  exact e

omit m in
/-- One more recorded wait at no launch index keeps the record admissible. -/
theorem waits_insert {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

/-! ## The body -/

variable [FloatOps F]

theorem pts_b0 (d : Dev nD) (L : grid0.Coords) (f : Buf (Elt F) ((V d (cV L) (jV L)).loc cc0_scratch0)) :
    ((b0 : Memref sig .scVector .vmem S16x1024 .f32).view.loc (V d (cV L) (jV L)) ↦{fullShare} f : sProp 𝕄) = (V d (cV L) (jV L)).loc cc0_scratch0 ↦{fullShare} f := rfl
theorem pts_b1 (d : Dev nD) (L : grid0.Coords) (f : Buf (Elt F) ((V d (cV L) (jV L)).loc cc0_scratch1)) :
    ((b1 : Memref sig .scVector .vmem S16x1024 .f32).view.loc (V d (cV L) (jV L)) ↦{fullShare} f : sProp 𝕄) = (V d (cV L) (jV L)).loc cc0_scratch1 ↦{fullShare} f := rfl
theorem pts_b2 (d : Dev nD) (L : grid0.Coords) (f : Buf (Elt F) ((V d (cV L) (jV L)).loc cc0_scratch2)) :
    ((b2 : Memref sig .scVector .vmem S16x1024 .f32).view.loc (V d (cV L) (jV L)) ↦{fullShare} f : sProp 𝕄) = (V d (cV L) (jV L)).loc cc0_scratch2 ↦{fullShare} f := rfl
theorem pts_b3 (d : Dev nD) (L : grid0.Coords) (f : Buf (Elt F) ((V d (cV L) (jV L)).loc cc0_scratch3)) :
    ((b3 : Memref sig .scVector .vmem S16x1024 .f32).view.loc (V d (cV L) (jV L)) ↦{fullShare} f : sProp 𝕄) = (V d (cV L) (jV L)).loc cc0_scratch3 ↦{fullShare} f := rfl

set_option maxHeartbeats 4000000 in
theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L xV (Memref.isWhole_whole _) oV (Memref.isWhole_whole _) b0 (Memref.isWhole_whole _) b1 (Memref.isWhole_whole _)
            b2 (Memref.isWhole_whole _) b3 (Memref.isWhole_whole _)
            cc0_scratch4 cc0_scratch5 cc0_scratch6 cc0_scratch7 cc0_scratch8 cc0_scratch9 cc0_scratch10 cc0_scratch11)
          fun _ => iprop(tileOut m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [(K (F := F)).scopedBufs_V hF d (cV L) (jV L), SparseCore.Cfg.scopedSems0_V (Val := Elt F) d (cV L) (jV L), ownSems0_V, ownBufs_V,
    tileIn_exec, tileOut_exec]
  iintro ⟨#Hlv, -, ⟨⟨Hx0, Ho0⟩, ⟨Hx1, Ho1⟩, ⟨Hx2, Ho2⟩, ⟨Hx3, Ho3⟩, ⟨Hx4, Ho4⟩, ⟨Hx5, Ho5⟩, ⟨Hx6, Ho6⟩, ⟨Hx7, Ho7⟩, ⟨Hx8, Ho8⟩, ⟨Hx9, Ho9⟩, ⟨Hx10, Ho10⟩, ⟨Hx11, Ho11⟩, ⟨Hx12, Ho12⟩, ⟨Hx13, Ho13⟩, ⟨Hx14, Ho14⟩, ⟨Hx15, Ho15⟩⟩,
    ⟨⟨⟨%f0, Hb0⟩, ⟨%f1, Hb1⟩, ⟨%f2, Hb2⟩, ⟨%f3, Hb3⟩⟩, Hbufs⟩, ⟨⟨Hs4, Hs5, Hs6, Hs7, Hs8, Hs9, Hs10, Hs11⟩, Hsems⟩, HO⟩
  ihave Hmw := ((K (F := F)).mayWaits_none (thr := (V d (cV L) (jV L))) hO) $$ Hlv
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  sl_exec
  sl_step
  -- the sixteen chunks: the table's as handed, the result array's holding the table's contents
  isplitl [Hx0 Ho0 Hx1 Ho1 Hx2 Ho2 Hx3 Ho3 Hx4 Ho4 Hx5 Ho5 Hx6 Ho6 Hx7 Ho7 Hx8 Ho8 Hx9 Ho9 Hx10 Ho10 Hx11 Ho11 Hx12 Ho12 Hx13 Ho13 Hx14 Ho14 Hx15 Ho15]
  ·
    isplitl [Hx0 Ho0]
    · isplitl [Hx0]; · iexact Hx0
      iapply (Entails.of_eq (pointsTo_congr (chunk_copied (F := F) m d L 0#32 (k0_off1_inb L 0) (b0 : Memref sig .scVector .vmem S16x1024 .f32).view _ (m (oLoc d))))); iexact Ho0
    isplitl [Hx1 Ho1]
    · isplitl [Hx1]; · iexact Hx1
      iapply (Entails.of_eq (pointsTo_congr (chunk_copied (F := F) m d L 16#32 (k0_off1_inb L 1) (b1 : Memref sig .scVector .vmem S16x1024 .f32).view _ (m (oLoc d))))); iexact Ho1
    isplitl [Hx2 Ho2]
    · isplitl [Hx2]; · iexact Hx2
      iapply (Entails.of_eq (pointsTo_congr (chunk_copied (F := F) m d L 32#32 (k0_off1_inb L 2) (b2 : Memref sig .scVector .vmem S16x1024 .f32).view _ (m (oLoc d))))); iexact Ho2
    isplitl [Hx3 Ho3]
    · isplitl [Hx3]; · iexact Hx3
      iapply (Entails.of_eq (pointsTo_congr (chunk_copied (F := F) m d L 48#32 (k0_off1_inb L 3) (b3 : Memref sig .scVector .vmem S16x1024 .f32).view _ (m (oLoc d))))); iexact Ho3
    isplitl [Hx4 Ho4]
    · isplitl [Hx4]; · iexact Hx4
      iapply (Entails.of_eq (pointsTo_congr (chunk_copied (F := F) m d L 64#32 (k0_off1_inb L 4) (b0 : Memref sig .scVector .vmem S16x1024 .f32).view _ (m (oLoc d))))); iexact Ho4
    isplitl [Hx5 Ho5]
    · isplitl [Hx5]; · iexact Hx5
      iapply (Entails.of_eq (pointsTo_congr (chunk_copied (F := F) m d L 80#32 (k0_off1_inb L 5) (b1 : Memref sig .scVector .vmem S16x1024 .f32).view _ (m (oLoc d))))); iexact Ho5
    isplitl [Hx6 Ho6]
    · isplitl [Hx6]; · iexact Hx6
      iapply (Entails.of_eq (pointsTo_congr (chunk_copied (F := F) m d L 96#32 (k0_off1_inb L 6) (b2 : Memref sig .scVector .vmem S16x1024 .f32).view _ (m (oLoc d))))); iexact Ho6
    isplitl [Hx7 Ho7]
    · isplitl [Hx7]; · iexact Hx7
      iapply (Entails.of_eq (pointsTo_congr (chunk_copied (F := F) m d L 112#32 (k0_off1_inb L 7) (b3 : Memref sig .scVector .vmem S16x1024 .f32).view _ (m (oLoc d))))); iexact Ho7
    isplitl [Hx8 Ho8]
    · isplitl [Hx8]; · iexact Hx8
      iapply (Entails.of_eq (pointsTo_congr (chunk_copied (F := F) m d L 128#32 (k0_off1_inb L 8) (b0 : Memref sig .scVector .vmem S16x1024 .f32).view _ (m (oLoc d))))); iexact Ho8
    isplitl [Hx9 Ho9]
    · isplitl [Hx9]; · iexact Hx9
      iapply (Entails.of_eq (pointsTo_congr (chunk_copied (F := F) m d L 144#32 (k0_off1_inb L 9) (b1 : Memref sig .scVector .vmem S16x1024 .f32).view _ (m (oLoc d))))); iexact Ho9
    isplitl [Hx10 Ho10]
    · isplitl [Hx10]; · iexact Hx10
      iapply (Entails.of_eq (pointsTo_congr (chunk_copied (F := F) m d L 160#32 (k0_off1_inb L 10) (b2 : Memref sig .scVector .vmem S16x1024 .f32).view _ (m (oLoc d))))); iexact Ho10
    isplitl [Hx11 Ho11]
    · isplitl [Hx11]; · iexact Hx11
      iapply (Entails.of_eq (pointsTo_congr (chunk_copied (F := F) m d L 176#32 (k0_off1_inb L 11) (b3 : Memref sig .scVector .vmem S16x1024 .f32).view _ (m (oLoc d))))); iexact Ho11
    isplitl [Hx12 Ho12]
    · isplitl [Hx12]; · iexact Hx12
      iapply (Entails.of_eq (pointsTo_congr (chunk_copied (F := F) m d L 192#32 (k0_off1_inb L 12) (b0 : Memref sig .scVector .vmem S16x1024 .f32).view _ (m (oLoc d))))); iexact Ho12
    isplitl [Hx13 Ho13]
    · isplitl [Hx13]; · iexact Hx13
      iapply (Entails.of_eq (pointsTo_congr (chunk_copied (F := F) m d L 208#32 (k0_off1_inb L 13) (b1 : Memref sig .scVector .vmem S16x1024 .f32).view _ (m (oLoc d))))); iexact Ho13
    isplitl [Hx14 Ho14]
    · isplitl [Hx14]; · iexact Hx14
      iapply (Entails.of_eq (pointsTo_congr (chunk_copied (F := F) m d L 224#32 (k0_off1_inb L 14) (b2 : Memref sig .scVector .vmem S16x1024 .f32).view _ (m (oLoc d))))); iexact Ho14
    isplitl [Hx15]; · iexact Hx15
    iapply (Entails.of_eq (pointsTo_congr (chunk_copied (F := F) m d L 240#32 (k0_off1_inb L 15) (b3 : Memref sig .scVector .vmem S16x1024 .f32).view _ (m (oLoc d))))); iexact Ho15
  -- the tile buffers, at whatever the loads left in them
  isplitl [Hb0 Hb1 Hb2 Hb3 Hbufs]
  · isplitl [Hb0 Hb1 Hb2 Hb3]
    · isplitl [Hb0]; · iexists _; iexact Hb0
      isplitl [Hb1]; · iexists _; iexact Hb1
      isplitl [Hb2]; · iexists _; iexact Hb2
      iexists _; iexact Hb3
    · iexact Hbufs
  -- the semaphores, back at zero
  isplitl [Hs4 Hs5 Hs6 Hs7 Hs8 Hs9 Hs10 Hs11 Hsems]
  · isplitl [Hs4 Hs5 Hs6 Hs7 Hs8 Hs9 Hs10 Hs11]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    · iexact Hsems
  -- the waits recorded: all on the kernel's own semaphores, at no launch index
  iexists _; isplitr
  swap
  · iexact HO
  · ipureintro
    repeat (first | exact fun p hp => Or.inl hp | refine waits_insert ?_ rfl)

end Cert.Kernel.Copy

end
-- ==== Proof.LaunchBits.lean ====
/-
  The program's run. Each tile's task is the body proved for a tile at symbolic coordinates; a SparseCore's
  operands are by definition its sixteen tiles' chunks, so splitting them among the tiles and gathering them
  back moves nothing. On the TensorCore, the call takes the table and the result array whole (the chunks
  partition them), and brings both back with the result array holding the table's contents; the host reshape
  then reads that array into the program's result. Every weakly fair execution of the thirty-five threads
  therefore ends, faults nowhere, leaves the table unchanged and the result at the table's contents under a
  leading unit axis.
-/
import proofs.«213488_g12206297055238_cont_main3_411_9_alg».proof.Proof.BodyBits

noncomputable section

namespace Cert.Kernel.Copy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile hcore0 hsub0 (fun c s => cc0__copy_body (coordsV c s)
          xV (Memref.isWhole_whole _) oV (Memref.isWhole_whole _) b0 (Memref.isWhole_whole _) b1 (Memref.isWhole_whole _)
          b2 (Memref.isWhole_whole _) b3 (Memref.isWhole_whole _)
          cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task is the body at the tile's coordinates. -/
theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles' chunks, and its results theirs. -/
theorem vecSplit : (K (F := F)).VecSplit' (P m) 0 := by
  intro d c
  show (bigSep Finset.univ fun s : Fin (grid0.bound 1) => tileIn m d (coordsV (Fin.cast nCore_zero c) s)) ⊢ |={Set.univ}=> iprop(
      (bigSep Finset.univ fun i : Fin ((K (F := F)).nSub 0) => tileIn m d (coordsV (Fin.cast nCore_zero c) (Fin.cast nSub_zero i)))
      ∗ ((bigSep Finset.univ fun i : Fin ((K (F := F)).nSub 0) => tileOut m d (coordsV (Fin.cast nCore_zero c) (Fin.cast nSub_zero i)))
          -∗ bigSep Finset.univ fun s : Fin (grid0.bound 1) => tileOut m d (coordsV (Fin.cast nCore_zero c) s)))
  rw [bigSep_tasks (F := F) (fun s => tileIn m d (coordsV (Fin.cast nCore_zero c) s)),
    bigSep_tasks (F := F) (fun s => tileOut m d (coordsV (Fin.cast nCore_zero c) s))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev o' : DevRef τ sig := Proc.devRef .tc (main_v0 : Ref sig .tc)
abbrev r' : DevRef τ sig := Proc.devRef .tc (main_v1 : Ref sig .tc)
/-- The host operation after the call: the result array read into the program's result under a leading unit axis. -/
abbrev opRe : HloOp τ sig (Elt F) := StableHlo.reshape main_v0 main_v1 rfl shapeCasts_S8192x1024_S1x8192x1024

/-- The TensorCore's arrays, all unscoped: the table, the kernel's result array, the program's result. -/
abbrev S3 : Finset (DevRef τ sig) := {x', o', r'}

omit [FloatOps F] in
theorem held_S3 (d : Dev nD) (W : Valuation τ sig (Elt F)) :
    (held (T d) S3 W : sProp 𝕄) = iprop((xLoc d ↦{fullShare} W x') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch valuation; after the call, the result array at what the tiles left. -/
def V0 (d : Dev nD) : Valuation τ sig (Elt F) := fun b => m (d, b)
def V1 (d : Dev nD) (f : Buf (Elt F) (oLoc d)) : Valuation τ sig (Elt F) := Function.update (V0 m d) o' f

omit [FloatOps F] in
theorem unscoped_held (d : Dev nD) : (unscopedBufs d (fun b => m ((SparseCore.T d).loc b)) : sProp 𝕄) = held (T d) S3 (V0 m d) := by
  rw [unscopedBufs_eq, held_S3]; rfl

omit [FloatOps F] in
theorem V1_x (d : Dev nD) (f : Buf (Elt F) (oLoc d)) : V1 m d f x' = m (xLoc d) := Function.update_of_ne (show x' ≠ o' by decide) _ _
omit [FloatOps F] in
theorem V1_o (d : Dev nD) (f : Buf (Elt F) (oLoc d)) : V1 m d f o' = f := Function.update_self _ _ _
omit [FloatOps F] in
theorem V1_r (d : Dev nD) (f : Buf (Elt F) (oLoc d)) : V1 m d f r' = V0 m d r' := Function.update_of_ne (show r' ≠ o' by decide) _ _

/-- What the program's result holds at the end: the host operation's result at the table's contents. -/
def resOf (d : Dev nD) : Buf (Elt F) (rLoc d) := (opRe (F := F)).result (V1 m d (asO d (m (xLoc d)))) r'

theorem held_after (d : Dev nD) :
    (held (T d) S3 ((opRe (F := F)).result (V1 m d (asO d (m (xLoc d))))) : sProp 𝕄)
      = iprop((xLoc d ↦{fullShare} m (xLoc d)) ∗ (oLoc d ↦{fullShare} asO d (m (xLoc d))) ∗ rLoc d ↦{fullShare} resOf m d) := by
  rw [held_S3,
    (opRe (F := F)).result_of_not_mem (V1 m d (asO d (m (xLoc d)))) (b := x') (show x' ∉ ({r'} : Finset (DevRef τ sig)) by decide), V1_x,
    (opRe (F := F)).result_of_not_mem (V1 m d (asO d (m (xLoc d)))) (b := o') (show o' ∉ ({r'} : Finset (DevRef τ sig)) by decide), V1_o]
  rfl

/-- What the call takes for the two SparseCores: the table and the result array whole; -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  show (bigSep Finset.univ fun c : Fin ((K (F := F)).nCore 0) => bigSep Finset.univ fun s : Fin (grid0.bound 1) => tileIn m d (coordsV (Fin.cast nCore_zero c) s)) = _
  rw [bigSep_cores (F := F) (fun c => bigSep Finset.univ fun s : Fin (grid0.bound 1) => tileIn m d (coordsV c s)), xChunks, oChunks]
  unfold tileIn
  simp only [bigSep_sep']
/-- and what it hands back: both whole again, the result array at the table's contents. -/
theorem dn0_eq (d : Dev nD) : (bigSep Finset.univ fun c : Fin ((K (F := F)).nCore 0) => (P m).dn 0 d c)
    = iprop((xLoc d ↦{fullShare} m (xLoc d)) ∗ oLoc d ↦{fullShare} asO d (m (xLoc d))) := by
  show (bigSep Finset.univ fun c : Fin ((K (F := F)).nCore 0) => bigSep Finset.univ fun s : Fin (grid0.bound 1) => tileOut m d (coordsV (Fin.cast nCore_zero c) s)) = _
  rw [bigSep_cores (F := F) (fun c => bigSep Finset.univ fun s : Fin (grid0.bound 1) => tileOut m d (coordsV c s)), xChunks, oChunks]
  unfold tileOut
  simp only [bigSep_sep']

theorem hRe : (opRe (F := F)).bufs ⊆ S3 := show ({o', r'} : Finset (DevRef τ sig)) ⊆ S3 by decide

/-- What @main leaves the claim: the table at its launch contents, the result at the reshape of them. -/
abbrev FIN (d : Dev nD) : sProp 𝕄 := iprop((xLoc d ↦{fullShare} m (xLoc d)) ∗ rLoc d ↦{fullShare} resOf m d)

/-- @main on device `d`'s TensorCore: the call (from the table and the result array whole), then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S3 (F := F) d _)) $$ Hheld
  icases Hh with ⟨Hx, Ho, Hr⟩
  iapply ((K (F := F)).wp_run (D (F := F)) 𝒱 (EH := EH) (P := P m) κ d 0) $$ [Hst Hx Ho Hb Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opRe) (S := S3) hRe (V := V1 m d (asO d (m (xLoc d))))) $$ [Hb Hx Ho Hr]
  · isplitl [Hb]; · iexact Hb
    rw [held_S3, V1_x, V1_o, V1_r]
    isplitl [Hx]; · iexact Hx
    isplitl [Ho]; · iexact Ho
    iexact Hr
  iintro ⟨Hb, Hheld⟩
  ihave Hh := (Entails.of_eq (held_after (F := F) m d)) $$ Hheld
  icases Hh with ⟨Hx, -, Hr⟩
  rw [wp_ret]; imodintro; imodintro
  isplitl [Hst]; · iexact Hst
  isplitl [Hx]; · iexact Hx
  iexact Hr

def fq (d : Dev nD) (s' : Phys nD τ sig (Elt F)) : Prop := s'.mem.mem (xLoc d) = m (xLoc d) ∧ s'.mem.mem (rLoc d) = resOf m d

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resOf m d)) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (rLoc c) = resOf m c ∧ r.2.mem (xLoc c) = m (xLoc c)

/-- Every weakly fair execution of the device's threads terminates, nothing faulting, with the program's result at
    the reshape of the table's launch contents and the table unchanged. -/
theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2, (h c).1⟩)

/-- The program's result is the table's launch contents under a leading unit axis. -/
theorem resOf_eq (d : Dev nD) :
    resOf m d = shapeCast S1x8192x1024 (m (xLoc d)) shapeCasts_S8192x1024_S1x8192x1024 := by
  unfold resOf
  rw [StableHlo.reshape_result, V1_o]
  rfl

end Cert.Kernel.Copy

end
-- ==== Proof.SetupIdeal.lean ====
/-
  A copy kernel on the vector subcores: thirty-two tiles (two SparseCores of sixteen), each moving its own
  256 rows of the 8192 x 1024 table into the result array in sixteen chunks of sixteen rows, through four tile
  buffers and eight transfer semaphores. This module fixes what the launch theorem is applied to: the program
  under the names the theorem uses, the ghost state (the launch handshakes' rounds beside the transfer
  counters: the tiles only make local copies and wait for them, so no schedule of their own is needed), the
  chunk rectangles as the program slices them, the fact that the 2 * 16 * 16 chunks partition the table, and
  what each handshake carries: a tile is handed its sixteen chunks of the table and of the result array and
  hands them back with the result's chunks holding the table's contents.
-/
import proofs.«213488_g12206297055238_cont_main3_411_9_alg».proof.Proof.Gen.KernelIdeal
import proofs.«213488_g12206297055238_cont_main3_411_9_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the tile buffers, the chunks -/

variable (m : (ℓ : Loc nD τ sig) → Buf (Elt F) ℓ) (ρ : Dev nD → PrngReg)

/-- The table, the kernel's result array and the program's result, as the TensorCore names them. -/
abbrev xLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

/-- The table's contents read as contents of the result array (the two arrays have one shape and element type). -/
abbrev asO (d : Dev nD) (f : Buf (Elt F) (xLoc d)) : Buf (Elt F) (oLoc d) := f

abbrev xV : Memref sig .scVector .hbm S8192x1024 .f32 := Memref.whole main_arg0_scv
abbrev oV : Memref sig .scVector .hbm S8192x1024 .f32 := Memref.whole main_v0_scv
abbrev b0 : Memref sig .scVector .vmem S16x1024 .f32 := Memref.whole cc0_scratch0
abbrev b1 : Memref sig .scVector .vmem S16x1024 .f32 := Memref.whole cc0_scratch1
abbrev b2 : Memref sig .scVector .vmem S16x1024 .f32 := Memref.whole cc0_scratch2
abbrev b3 : Memref sig .scVector .vmem S16x1024 .f32 := Memref.whole cc0_scratch3

/-- The tile at grid coordinates `L`: its SparseCore and its number among that SparseCore's tiles. -/
abbrev cV (L : grid0.Coords) : Fin τ.nSC := (L 0).castLE hcore0
abbrev jV (L : grid0.Coords) : Fin τ.nSub := (L 1).castLE hsub0

/-- Sixteen rows of the table from the row the tile computes for the constant `k`, all 1024 columns: the
    rectangle of one chunk, spelt as the program slices it. -/
abbrev cR (L : grid0.Coords) (k : BitVec 32) (h : ∀ a, k0_off1 L k a + S16x1024.size a ≤ S8192x1024.size a) : Rect S8192x1024 :=
  Rect.unit (s := S8192x1024) (k0_off1 L k) S16x1024.size h
/-- The chunk of the table and of the result array as the tile addresses them. -/
abbrev xC (L : grid0.Coords) (k : BitVec 32) (h : ∀ a, k0_off1 L k a + S16x1024.size a ≤ S8192x1024.size a) : Memref sig .scVector .hbm S16x1024 .f32 :=
  (xV : Memref sig .scVector .hbm S8192x1024 .f32).slice (cR L k h) (fun _ => rfl)
abbrev oC (L : grid0.Coords) (k : BitVec 32) (h : ∀ a, k0_off1 L k a + S16x1024.size a ≤ S8192x1024.size a) : Memref sig .scVector .hbm S16x1024 .f32 :=
  (oV : Memref sig .scVector .hbm S8192x1024 .f32).slice (cR L k h) (fun _ => rfl)

/-- Chunk `r` of the tile at `L`: the elements of rows 512 * (L 1) + 256 * (L 0) + 16 * r up to sixteen further. -/
abbrev cSet (L : grid0.Coords) (r : Fin 16) : Finset S8192x1024.Idx := (cR L (BitVec.ofNat 32 (16 * r.val)) (k0_off1_inb L r)).set

theorem set_xC (L : grid0.Coords) (k : BitVec 32) (h : ∀ a, k0_off1 L k a + S16x1024.size a ≤ S8192x1024.size a) :
    (xC L k h).view.set = (cR L k h).set := View.set_slice_whole _ _
theorem set_oC (L : grid0.Coords) (k : BitVec 32) (h : ∀ a, k0_off1 L k a + S16x1024.size a ≤ S8192x1024.size a) :
    (oC L k h).view.set = (cR L k h).set := View.set_slice_whole _ _

/-- A chunk held as the tile addresses it is that chunk of the TensorCore's array. -/
theorem pts_xC (d : Dev nD) (L : grid0.Coords) (k : BitVec 32) (h : ∀ a, k0_off1 L k a + S16x1024.size a ≤ S8192x1024.size a) (f : Buf (Elt F) (xLoc d)) :
    ((xC L k h).view.loc (V d (cV L) (jV L)) ↦[(xC L k h).view.set]{fullShare} f : sProp 𝕄) = xLoc d ↦[(cR L k h).set]{fullShare} f := by
  rw [set_xC]
theorem pts_oC (d : Dev nD) (L : grid0.Coords) (k : BitVec 32) (h : ∀ a, k0_off1 L k a + S16x1024.size a ≤ S8192x1024.size a) (f : Buf (Elt F) (oLoc d)) :
    ((oC L k h).view.loc (V d (cV L) (jV L)) ↦[(oC L k h).view.set]{fullShare} f : sProp 𝕄) = oLoc d ↦[(cR L k h).set]{fullShare} f := by
  rw [set_oC]

/-! ## The chunks partition the table -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- One chunk per SparseCore, tile and chunk number. -/
abbrev CIx : Type := Fin (grid0.bound 0) × Fin (grid0.bound 1) × Fin 16
abbrev cSetOf (t : CIx) : Finset S8192x1024.Idx := cSet (coordsV t.1 t.2.1) t.2.2

/-- The first row of a chunk: tile `s` of SparseCore `c` is worker 2 * s + c, whose rows start at 256 * (2 * s + c). -/
theorem off_row (c : Fin (grid0.bound 0)) (s : Fin (grid0.bound 1)) (r : Fin 16) :
    k0_off1 (coordsV c s) (BitVec.ofNat 32 (16 * r.val)) = ![512 * s.val + 256 * c.val + 16 * r.val, 0] :=
  k0_off1_eq (coordsV c s) r

/-- Two different chunks start sixteen or more rows apart, so they share no element. -/
theorem chunks_disjoint : ∀ t ∈ (Finset.univ : Finset CIx), ∀ t' ∈ (Finset.univ : Finset CIx), t ≠ t' → Disjoint (cSetOf t) (cSetOf t') := by
  rintro ⟨c, s, r⟩ - ⟨c', s', r'⟩ - hne
  have hc : c.val < 2 := c.isLt
  have hc' : c'.val < 2 := c'.isLt
  have hs : s.val < 16 := s.isLt
  have hs' : s'.val < 16 := s'.isLt
  have h3 : ¬ (c.val = c'.val ∧ s.val = s'.val ∧ r.val = r'.val) :=
    fun ⟨h1, h2, h3⟩ => hne (Prod.ext (Fin.ext h1) (Prod.ext (Fin.ext h2) (Fin.ext h3)))
  refine Rect.unit_disjoint (0 : Fin 2) ?_
  rw [off_row, off_row]
  show 512 * s.val + 256 * c.val + 16 * r.val + 16 ≤ 512 * s'.val + 256 * c'.val + 16 * r'.val
    ∨ 512 * s'.val + 256 * c'.val + 16 * r'.val + 16 ≤ 512 * s.val + 256 * c.val + 16 * r.val
  omega

/-- Every row lies in a chunk: row `n` in chunk (n mod 256) / 16 of tile n / 512 of SparseCore (n / 256) mod 2. -/
theorem chunks_cover : (Finset.univ : Finset CIx).biUnion cSetOf = Finset.univ := by
  ext j
  simp only [Finset.mem_biUnion, Finset.mem_univ, true_and, iff_true]
  have h0 : (j 0).val < 8192 := (j 0).isLt
  have h1 : (j 1).val < 1024 := (j 1).isLt
  refine ⟨(⟨(j 0).val / 256 % 2, Nat.mod_lt _ (by decide)⟩, ⟨(j 0).val / 512, by show (j 0).val / 512 < 16; omega⟩,
    ⟨(j 0).val % 256 / 16, by omega⟩), Rect.mem_set_unit.mpr fun a => ?_⟩
  rw [off_row]
  match a with
  | 0 =>
    show 512 * ((j 0).val / 512) + 256 * ((j 0).val / 256 % 2) + 16 * ((j 0).val % 256 / 16) ≤ (j 0).val
      ∧ (j 0).val < 512 * ((j 0).val / 512) + 256 * ((j 0).val / 256 % 2) + 16 * ((j 0).val % 256 / 16) + 16
    omega
  | 1 =>
    show 0 ≤ (j 1).val ∧ (j 1).val < 0 + 1024
    omega

/-- The table (or the result array) whole is its chunks, SparseCore by SparseCore, tile by tile. -/
theorem xChunks (d : Dev nD) (f : Buf (Elt F) (xLoc d)) :
    (xLoc d ↦{fullShare} f : sProp 𝕄) = bigSep Finset.univ fun c : Fin (grid0.bound 0) => bigSep Finset.univ fun s : Fin (grid0.bound 1) =>
      bigSep Finset.univ fun r : Fin 16 => xLoc d ↦[cSet (coordsV c s) r]{fullShare} f := by
  symm
  calc _ = bigSep (Finset.univ : Finset CIx) fun t => (xLoc d ↦[cSetOf t]{fullShare} f : sProp 𝕄) := by
        rw [← Finset.univ_product_univ, SparseCore.bigSep_product]
        refine bigSep_congr fun c _ => ?_
        rw [← Finset.univ_product_univ, SparseCore.bigSep_product]
    _ = (xLoc d ↦[(Finset.univ : Finset CIx).biUnion cSetOf]{fullShare} f : sProp 𝕄) :=
        (pointsTo_biUnion Finset.univ (ℓ := xLoc d) cSetOf chunks_disjoint).symm
    _ = _ := by rw [chunks_cover]; try rfl
theorem oChunks (d : Dev nD) (f : Buf (Elt F) (oLoc d)) :
    (oLoc d ↦{fullShare} f : sProp 𝕄) = bigSep Finset.univ fun c : Fin (grid0.bound 0) => bigSep Finset.univ fun s : Fin (grid0.bound 1) =>
      bigSep Finset.univ fun r : Fin 16 => oLoc d ↦[cSet (coordsV c s) r]{fullShare} f := by
  symm
  calc _ = bigSep (Finset.univ : Finset CIx) fun t => (oLoc d ↦[cSetOf t]{fullShare} f : sProp 𝕄) := by
        rw [← Finset.univ_product_univ, SparseCore.bigSep_product]
        refine bigSep_congr fun c _ => ?_
        rw [← Finset.univ_product_univ, SparseCore.bigSep_product]
    _ = (oLoc d ↦[(Finset.univ : Finset CIx).biUnion cSetOf]{fullShare} f : sProp 𝕄) :=
        (pointsTo_biUnion Finset.univ (ℓ := oLoc d) cSetOf chunks_disjoint).symm
    _ = _ := by rw [chunks_cover]; try rfl

/-! ## What the handshakes carry -/

/-- What a tile is handed: its sixteen chunks of the table, and of the result array at its launch contents. -/
def tileIn (d : Dev nD) (L : grid0.Coords) : sProp 𝕄 :=
  bigSep Finset.univ fun r : Fin 16 => iprop((xLoc d ↦[cSet L r]{fullShare} m (xLoc d)) ∗ oLoc d ↦[cSet L r]{fullShare} m (oLoc d))
/-- What it hands back: the table's chunks unchanged, the result array's chunks holding the table's contents. -/
def tileOut (d : Dev nD) (L : grid0.Coords) : sProp 𝕄 :=
  bigSep Finset.univ fun r : Fin 16 => iprop((xLoc d ↦[cSet L r]{fullShare} m (xLoc d)) ∗ oLoc d ↦[cSet L r]{fullShare} asO d (m (xLoc d)))

/-- The one call hands each SparseCore its sixteen tiles' chunks, each tile its own, and brings them back copied. -/
def P : (K (F := F)).Pay (nD := nD) (Val := Elt F) (Name := ℕ) (U := UU) where
  st := fun q d c => match q with
    | 0 => bigSep Finset.univ fun s : Fin (grid0.bound 1) => tileIn m d (coordsV (Fin.cast nCore_zero c) s)
  dn := fun q d c => match q with
    | 0 => bigSep Finset.univ fun s : Fin (grid0.bound 1) => tileOut m d (coordsV (Fin.cast nCore_zero c) s)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance P_storable : (P (F := F) m).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

end Cert.KernelIdeal.Copy

end
-- ==== Proof.BodyIdeal.lean ====
/-
  One tile's task. The tile is handed its sixteen chunks of the table and of the result array; its four tile
  buffers and eight transfer semaphores are among its scoped storage. The body is a straight line: four loads
  are started; then for each chunk in turn the tile waits for the chunk's load, starts its store out of the same
  buffer and, while chunks remain, waits for that store before starting the next load into the buffer; the last
  four stores are waited for at the end. No buffer is read or written while a transfer on it is pending, so
  every chunk of the result array ends holding the table's contents on that chunk's elements.
-/
import proofs.«213488_g12206297055238_cont_main3_411_9_alg».proof.Proof.SetupIdeal
import Idealize.ShloMosaic.Lib.Writes

noncomputable section

namespace Cert.KernelIdeal.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Sixteen and eight and four things, one by one -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  repeat rw [SparseCore.bigSep_insert' (by decide)]
  rw [bigSep_singleton]
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]
theorem bigSep_fin4 (Φ : Fin 4 → sProp 𝕄) :
    bigSep Finset.univ Φ = iprop(Φ 0 ∗ Φ 1 ∗ Φ 2 ∗ Φ 3) := by
  rw [show (Finset.univ : Finset (Fin 4)) = {0, 1, 2, 3} by decide]
  repeat rw [SparseCore.bigSep_insert' (by decide)]
  rw [bigSep_singleton]

/-! ## The tile's semaphores and buffers among its scoped storage -/

/-- The kernel's eight transfer semaphores: four for the loads, four for the stores. -/
abbrev semOf : Fin 8 → SemLoc sig
  | 0 => .dma cc0_scratch4.sem | 1 => .dma cc0_scratch5.sem | 2 => .dma cc0_scratch6.sem | 3 => .dma cc0_scratch7.sem
  | 4 => .dma cc0_scratch8.sem | 5 => .dma cc0_scratch9.sem | 6 => .dma cc0_scratch10.sem | 7 => .dma cc0_scratch11.sem
theorem semOf_inj : Function.Injective semOf := by decide
theorem semOf_scoped : ∀ k : Fin 8, (semOf k).isScoped .scVector = true := by decide

def semCells (d : Dev nD) (c : Fin τ.nSC) (i : Fin τ.nSub) : Finset (GSem nD τ sig) :=
  Finset.univ.map ⟨fun k : Fin 8 => ((V d c i, semOf k) : GSem nD τ sig), fun _ _ e => semOf_inj (Prod.mk.inj e).2⟩
theorem semCells_sub (d : Dev nD) (c : Fin τ.nSC) (i : Fin τ.nSub) : semCells d c i ⊆ ownCells (V d c i) := by
  intro g hg
  obtain ⟨k, -, rfl⟩ := Finset.mem_map.mp hg
  exact mem_ownCells.mpr ⟨rfl, semOf_scoped k⟩

/-- The eight semaphores' counters, at zero, are among the tile's own cells. -/
theorem ownSems0_V (d : Dev nD) (c : Fin τ.nSC) (i : Fin τ.nSub) :
    (ownSems0 (V d c i) : sProp 𝕄)
      = iprop((semVal (V d c i, SemLoc.dma cc0_scratch4.sem) 0 ∗ semVal (V d c i, SemLoc.dma cc0_scratch5.sem) 0 ∗ semVal (V d c i, SemLoc.dma cc0_scratch6.sem) 0 ∗ semVal (V d c i, SemLoc.dma cc0_scratch7.sem) 0 ∗ semVal (V d c i, SemLoc.dma cc0_scratch8.sem) 0 ∗ semVal (V d c i, SemLoc.dma cc0_scratch9.sem) 0 ∗ semVal (V d c i, SemLoc.dma cc0_scratch10.sem) 0 ∗ semVal (V d c i, SemLoc.dma cc0_scratch11.sem) 0)
          ∗ bigSep (ownCells (V d c i) \ semCells d c i) fun g => semVal g 0) := by
  unfold SparseCore.Cfg.ownSems0
  rw [SparseCore.bigSep_sdiff_split' (semCells_sub d c i), semCells, bigSep_map, bigSep_fin8]
  rfl

/-- The kernel's four tile buffers. -/
abbrev bufOf : Fin 4 → Ref sig .scVector
  | 0 => cc0_scratch0 | 1 => cc0_scratch1 | 2 => cc0_scratch2 | 3 => cc0_scratch3
theorem bufOf_inj : Function.Injective bufOf := by decide

def bufRefs (c : Fin τ.nSC) (i : Fin τ.nSub) : Finset (DevRef τ sig) :=
  Finset.univ.map ⟨fun k : Fin 4 => (Proc.scVector c i).devRef (bufOf k), fun _ _ e => bufOf_inj (Proc.devRef_injective _ e)⟩
theorem bufRefs_sub (c : Fin τ.nSC) (i : Fin τ.nSub) : bufRefs c i ⊆ ownRefs (τ := τ) (.scVector c i) := by
  intro b hb
  obtain ⟨k, -, rfl⟩ := Finset.mem_map.mp hb
  have hk : ((Proc.scVector c i).devRef (bufOf k)).owner = .proc (Proc.scVector c i) := by
    match k with | 0 => rfl | 1 => rfl | 2 => rfl | 3 => rfl
  exact SparseCore.Cfg.mem_ownRefs_of_owner hk

/-- The four buffers, at some contents, are among the tile's own storage. -/
theorem ownBufs_V (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f))
          ∗ bigSep (ownRefs (τ := τ) (.scVector c i) \ bufRefs c i) fun b => iprop(∃ f, ((d, b) : Loc nD τ sig) ↦{fullShare} f)) := by
  unfold SparseCore.Cfg.ownBufs
  rw [SparseCore.bigSep_sdiff_split' (bufRefs_sub c i), bufRefs, bigSep_map, bigSep_fin4]
  rfl

/-! ## The tile's chunks as the tile addresses them -/

variable (m : (ℓ : Loc nD τ sig) → Buf (Elt F) ℓ)

/-- Chunk `r` of the tile, whose row offset the program computes from the constant `k` = 16 * r: held as the
    TensorCore names the arrays, or as the tile addresses the chunk. -/
theorem chunk_exec (d : Dev nD) (L : grid0.Coords) (r : Fin 16) (k : BitVec 32) (hk : k = BitVec.ofNat 32 (16 * r.val))
    (h : ∀ a, k0_off1 L k a + S16x1024.size a ≤ S8192x1024.size a) (fx : Buf (Elt F) (xLoc d)) (fo : Buf (Elt F) (oLoc d)) :
    (iprop((xLoc d ↦[cSet L r]{fullShare} fx) ∗ oLoc d ↦[cSet L r]{fullShare} fo) : sProp 𝕄)
      = iprop(((xC L k h).view.loc (V d (cV L) (jV L)) ↦[(xC L k h).view.set]{fullShare} fx)
          ∗ (oC L k h).view.loc (V d (cV L) (jV L)) ↦[(oC L k h).view.set]{fullShare} fo) := by
  subst hk
  rw [pts_xC, pts_oC]

omit m in
theorem sep_congr' {A A' B B' : sProp 𝕄} (h1 : A = A') (h2 : B = B') : (iprop(A ∗ B) : sProp 𝕄) = iprop(A' ∗ B') := by rw [h1, h2]

theorem tileIn_exec (d : Dev nD) (L : grid0.Coords) :
    tileIn m d L = iprop((((xC L 0#32 (k0_off1_inb L 0)).view.loc (V d (cV L) (jV L)) ↦[(xC L 0#32 (k0_off1_inb L 0)).view.set]{fullShare} m (xLoc d)) ∗ ((oC L 0#32 (k0_off1_inb L 0)).view.loc (V d (cV L) (jV L)) ↦[(oC L 0#32 (k0_off1_inb L 0)).view.set]{fullShare} m (oLoc d)))
        ∗ (((xC L 16#32 (k0_off1_inb L 1)).view.loc (V d (cV L) (jV L)) ↦[(xC L 16#32 (k0_off1_inb L 1)).view.set]{fullShare} m (xLoc d)) ∗ ((oC L 16#32 (k0_off1_inb L 1)).view.loc (V d (cV L) (jV L)) ↦[(oC L 16#32 (k0_off1_inb L 1)).view.set]{fullShare} m (oLoc d)))
        ∗ (((xC L 32#32 (k0_off1_inb L 2)).view.loc (V d (cV L) (jV L)) ↦[(xC L 32#32 (k0_off1_inb L 2)).view.set]{fullShare} m (xLoc d)) ∗ ((oC L 32#32 (k0_off1_inb L 2)).view.loc (V d (cV L) (jV L)) ↦[(oC L 32#32 (k0_off1_inb L 2)).view.set]{fullShare} m (oLoc d)))
        ∗ (((xC L 48#32 (k0_off1_inb L 3)).view.loc (V d (cV L) (jV L)) ↦[(xC L 48#32 (k0_off1_inb L 3)).view.set]{fullShare} m (xLoc d)) ∗ ((oC L 48#32 (k0_off1_inb L 3)).view.loc (V d (cV L) (jV L)) ↦[(oC L 48#32 (k0_off1_inb L 3)).view.set]{fullShare} m (oLoc d)))
        ∗ (((xC L 64#32 (k0_off1_inb L 4)).view.loc (V d (cV L) (jV L)) ↦[(xC L 64#32 (k0_off1_inb L 4)).view.set]{fullShare} m (xLoc d)) ∗ ((oC L 64#32 (k0_off1_inb L 4)).view.loc (V d (cV L) (jV L)) ↦[(oC L 64#32 (k0_off1_inb L 4)).view.set]{fullShare} m (oLoc d)))
        ∗ (((xC L 80#32 (k0_off1_inb L 5)).view.loc (V d (cV L) (jV L)) ↦[(xC L 80#32 (k0_off1_inb L 5)).view.set]{fullShare} m (xLoc d)) ∗ ((oC L 80#32 (k0_off1_inb L 5)).view.loc (V d (cV L) (jV L)) ↦[(oC L 80#32 (k0_off1_inb L 5)).view.set]{fullShare} m (oLoc d)))
        ∗ (((xC L 96#32 (k0_off1_inb L 6)).view.loc (V d (cV L) (jV L)) ↦[(xC L 96#32 (k0_off1_inb L 6)).view.set]{fullShare} m (xLoc d)) ∗ ((oC L 96#32 (k0_off1_inb L 6)).view.loc (V d (cV L) (jV L)) ↦[(oC L 96#32 (k0_off1_inb L 6)).view.set]{fullShare} m (oLoc d)))
        ∗ (((xC L 112#32 (k0_off1_inb L 7)).view.loc (V d (cV L) (jV L)) ↦[(xC L 112#32 (k0_off1_inb L 7)).view.set]{fullShare} m (xLoc d)) ∗ ((oC L 112#32 (k0_off1_inb L 7)).view.loc (V d (cV L) (jV L)) ↦[(oC L 112#32 (k0_off1_inb L 7)).view.set]{fullShare} m (oLoc d)))
        ∗ (((xC L 128#32 (k0_off1_inb L 8)).view.loc (V d (cV L) (jV L)) ↦[(xC L 128#32 (k0_off1_inb L 8)).view.set]{fullShare} m (xLoc d)) ∗ ((oC L 128#32 (k0_off1_inb L 8)).view.loc (V d (cV L) (jV L)) ↦[(oC L 128#32 (k0_off1_inb L 8)).view.set]{fullShare} m (oLoc d)))
        ∗ (((xC L 144#32 (k0_off1_inb L 9)).view.loc (V d (cV L) (jV L)) ↦[(xC L 144#32 (k0_off1_inb L 9)).view.set]{fullShare} m (xLoc d)) ∗ ((oC L 144#32 (k0_off1_inb L 9)).view.loc (V d (cV L) (jV L)) ↦[(oC L 144#32 (k0_off1_inb L 9)).view.set]{fullShare} m (oLoc d)))
        ∗ (((xC L 160#32 (k0_off1_inb L 10)).view.loc (V d (cV L) (jV L)) ↦[(xC L 160#32 (k0_off1_inb L 10)).view.set]{fullShare} m (xLoc d)) ∗ ((oC L 160#32 (k0_off1_inb L 10)).view.loc (V d (cV L) (jV L)) ↦[(oC L 160#32 (k0_off1_inb L 10)).view.set]{fullShare} m (oLoc d)))
        ∗ (((xC L 176#32 (k0_off1_inb L 11)).view.loc (V d (cV L) (jV L)) ↦[(xC L 176#32 (k0_off1_inb L 11)).view.set]{fullShare} m (xLoc d)) ∗ ((oC L 176#32 (k0_off1_inb L 11)).view.loc (V d (cV L) (jV L)) ↦[(oC L 176#32 (k0_off1_inb L 11)).view.set]{fullShare} m (oLoc d)))
        ∗ (((xC L 192#32 (k0_off1_inb L 12)).view.loc (V d (cV L) (jV L)) ↦[(xC L 192#32 (k0_off1_inb L 12)).view.set]{fullShare} m (xLoc d)) ∗ ((oC L 192#32 (k0_off1_inb L 12)).view.loc (V d (cV L) (jV L)) ↦[(oC L 192#32 (k0_off1_inb L 12)).view.set]{fullShare} m (oLoc d)))
        ∗ (((xC L 208#32 (k0_off1_inb L 13)).view.loc (V d (cV L) (jV L)) ↦[(xC L 208#32 (k0_off1_inb L 13)).view.set]{fullShare} m (xLoc d)) ∗ ((oC L 208#32 (k0_off1_inb L 13)).view.loc (V d (cV L) (jV L)) ↦[(oC L 208#32 (k0_off1_inb L 13)).view.set]{fullShare} m (oLoc d)))
        ∗ (((xC L 224#32 (k0_off1_inb L 14)).view.loc (V d (cV L) (jV L)) ↦[(xC L 224#32 (k0_off1_inb L 14)).view.set]{fullShare} m (xLoc d)) ∗ ((oC L 224#32 (k0_off1_inb L 14)).view.loc (V d (cV L) (jV L)) ↦[(oC L 224#32 (k0_off1_inb L 14)).view.set]{fullShare} m (oLoc d)))
        ∗ (((xC L 240#32 (k0_off1_inb L 15)).view.loc (V d (cV L) (jV L)) ↦[(xC L 240#32 (k0_off1_inb L 15)).view.set]{fullShare} m (xLoc d)) ∗ ((oC L 240#32 (k0_off1_inb L 15)).view.loc (V d (cV L) (jV L)) ↦[(oC L 240#32 (k0_off1_inb L 15)).view.set]{fullShare} m (oLoc d)))) := by
  unfold tileIn
  refine (bigSep_fin16 _).trans ?_
  exact sep_congr' (chunk_exec d L 0 0#32 (by decide) (k0_off1_inb L 0) (m (xLoc d)) (m (oLoc d)))
    (sep_congr' (chunk_exec d L 1 16#32 (by decide) (k0_off1_inb L 1) (m (xLoc d)) (m (oLoc d)))
    (sep_congr' (chunk_exec d L 2 32#32 (by decide) (k0_off1_inb L 2) (m (xLoc d)) (m (oLoc d)))
    (sep_congr' (chunk_exec d L 3 48#32 (by decide) (k0_off1_inb L 3) (m (xLoc d)) (m (oLoc d)))
    (sep_congr' (chunk_exec d L 4 64#32 (by decide) (k0_off1_inb L 4) (m (xLoc d)) (m (oLoc d)))
    (sep_congr' (chunk_exec d L 5 80#32 (by decide) (k0_off1_inb L 5) (m (xLoc d)) (m (oLoc d)))
    (sep_congr' (chunk_exec d L 6 96#32 (by decide) (k0_off1_inb L 6) (m (xLoc d)) (m (oLoc d)))
    (sep_congr' (chunk_exec d L 7 112#32 (by decide) (k0_off1_inb L 7) (m (xLoc d)) (m (oLoc d)))
    (sep_congr' (chunk_exec d L 8 128#32 (by decide) (k0_off1_inb L 8) (m (xLoc d)) (m (oLoc d)))
    (sep_congr' (chunk_exec d L 9 144#32 (by decide) (k0_off1_inb L 9) (m (xLoc d)) (m (oLoc d)))
    (sep_congr' (chunk_exec d L 10 160#32 (by decide) (k0_off1_inb L 10) (m (xLoc d)) (m (oLoc d)))
    (sep_congr' (chunk_exec d L 11 176#32 (by decide) (k0_off1_inb L 11) (m (xLoc d)) (m (oLoc d)))
    (sep_congr' (chunk_exec d L 12 192#32 (by decide) (k0_off1_inb L 12) (m (xLoc d)) (m (oLoc d)))
    (sep_congr' (chunk_exec d L 13 208#32 (by decide) (k0_off1_inb L 13) (m (xLoc d)) (m (oLoc d)))
    (sep_congr' (chunk_exec d L 14 224#32 (by decide) (k0_off1_inb L 14) (m (xLoc d)) (m (oLoc d)))
    (chunk_exec d L 15 240#32 (by decide) (k0_off1_inb L 15) (m (xLoc d)) (m (oLoc d)))))))))))))))))
theorem tileOut_exec (d : Dev nD) (L : grid0.Coords) :
    tileOut m d L = iprop((((xC L 0#32 (k0_off1_inb L 0)).view.loc (V d (cV L) (jV L)) ↦[(xC L 0#32 (k0_off1_inb L 0)).view.set]{fullShare} m (xLoc d)) ∗ ((oC L 0#32 (k0_off1_inb L 0)).view.loc (V d (cV L) (jV L)) ↦[(oC L 0#32 (k0_off1_inb L 0)).view.set]{fullShare} asO d (m (xLoc d))))
        ∗ (((xC L 16#32 (k0_off1_inb L 1)).view.loc (V d (cV L) (jV L)) ↦[(xC L 16#32 (k0_off1_inb L 1)).view.set]{fullShare} m (xLoc d)) ∗ ((oC L 16#32 (k0_off1_inb L 1)).view.loc (V d (cV L) (jV L)) ↦[(oC L 16#32 (k0_off1_inb L 1)).view.set]{fullShare} asO d (m (xLoc d))))
        ∗ (((xC L 32#32 (k0_off1_inb L 2)).view.loc (V d (cV L) (jV L)) ↦[(xC L 32#32 (k0_off1_inb L 2)).view.set]{fullShare} m (xLoc d)) ∗ ((oC L 32#32 (k0_off1_inb L 2)).view.loc (V d (cV L) (jV L)) ↦[(oC L 32#32 (k0_off1_inb L 2)).view.set]{fullShare} asO d (m (xLoc d))))
        ∗ (((xC L 48#32 (k0_off1_inb L 3)).view.loc (V d (cV L) (jV L)) ↦[(xC L 48#32 (k0_off1_inb L 3)).view.set]{fullShare} m (xLoc d)) ∗ ((oC L 48#32 (k0_off1_inb L 3)).view.loc (V d (cV L) (jV L)) ↦[(oC L 48#32 (k0_off1_inb L 3)).view.set]{fullShare} asO d (m (xLoc d))))
        ∗ (((xC L 64#32 (k0_off1_inb L 4)).view.loc (V d (cV L) (jV L)) ↦[(xC L 64#32 (k0_off1_inb L 4)).view.set]{fullShare} m (xLoc d)) ∗ ((oC L 64#32 (k0_off1_inb L 4)).view.loc (V d (cV L) (jV L)) ↦[(oC L 64#32 (k0_off1_inb L 4)).view.set]{fullShare} asO d (m (xLoc d))))
        ∗ (((xC L 80#32 (k0_off1_inb L 5)).view.loc (V d (cV L) (jV L)) ↦[(xC L 80#32 (k0_off1_inb L 5)).view.set]{fullShare} m (xLoc d)) ∗ ((oC L 80#32 (k0_off1_inb L 5)).view.loc (V d (cV L) (jV L)) ↦[(oC L 80#32 (k0_off1_inb L 5)).view.set]{fullShare} asO d (m (xLoc d))))
        ∗ (((xC L 96#32 (k0_off1_inb L 6)).view.loc (V d (cV L) (jV L)) ↦[(xC L 96#32 (k0_off1_inb L 6)).view.set]{fullShare} m (xLoc d)) ∗ ((oC L 96#32 (k0_off1_inb L 6)).view.loc (V d (cV L) (jV L)) ↦[(oC L 96#32 (k0_off1_inb L 6)).view.set]{fullShare} asO d (m (xLoc d))))
        ∗ (((xC L 112#32 (k0_off1_inb L 7)).view.loc (V d (cV L) (jV L)) ↦[(xC L 112#32 (k0_off1_inb L 7)).view.set]{fullShare} m (xLoc d)) ∗ ((oC L 112#32 (k0_off1_inb L 7)).view.loc (V d (cV L) (jV L)) ↦[(oC L 112#32 (k0_off1_inb L 7)).view.set]{fullShare} asO d (m (xLoc d))))
        ∗ (((xC L 128#32 (k0_off1_inb L 8)).view.loc (V d (cV L) (jV L)) ↦[(xC L 128#32 (k0_off1_inb L 8)).view.set]{fullShare} m (xLoc d)) ∗ ((oC L 128#32 (k0_off1_inb L 8)).view.loc (V d (cV L) (jV L)) ↦[(oC L 128#32 (k0_off1_inb L 8)).view.set]{fullShare} asO d (m (xLoc d))))
        ∗ (((xC L 144#32 (k0_off1_inb L 9)).view.loc (V d (cV L) (jV L)) ↦[(xC L 144#32 (k0_off1_inb L 9)).view.set]{fullShare} m (xLoc d)) ∗ ((oC L 144#32 (k0_off1_inb L 9)).view.loc (V d (cV L) (jV L)) ↦[(oC L 144#32 (k0_off1_inb L 9)).view.set]{fullShare} asO d (m (xLoc d))))
        ∗ (((xC L 160#32 (k0_off1_inb L 10)).view.loc (V d (cV L) (jV L)) ↦[(xC L 160#32 (k0_off1_inb L 10)).view.set]{fullShare} m (xLoc d)) ∗ ((oC L 160#32 (k0_off1_inb L 10)).view.loc (V d (cV L) (jV L)) ↦[(oC L 160#32 (k0_off1_inb L 10)).view.set]{fullShare} asO d (m (xLoc d))))
        ∗ (((xC L 176#32 (k0_off1_inb L 11)).view.loc (V d (cV L) (jV L)) ↦[(xC L 176#32 (k0_off1_inb L 11)).view.set]{fullShare} m (xLoc d)) ∗ ((oC L 176#32 (k0_off1_inb L 11)).view.loc (V d (cV L) (jV L)) ↦[(oC L 176#32 (k0_off1_inb L 11)).view.set]{fullShare} asO d (m (xLoc d))))
        ∗ (((xC L 192#32 (k0_off1_inb L 12)).view.loc (V d (cV L) (jV L)) ↦[(xC L 192#32 (k0_off1_inb L 12)).view.set]{fullShare} m (xLoc d)) ∗ ((oC L 192#32 (k0_off1_inb L 12)).view.loc (V d (cV L) (jV L)) ↦[(oC L 192#32 (k0_off1_inb L 12)).view.set]{fullShare} asO d (m (xLoc d))))
        ∗ (((xC L 208#32 (k0_off1_inb L 13)).view.loc (V d (cV L) (jV L)) ↦[(xC L 208#32 (k0_off1_inb L 13)).view.set]{fullShare} m (xLoc d)) ∗ ((oC L 208#32 (k0_off1_inb L 13)).view.loc (V d (cV L) (jV L)) ↦[(oC L 208#32 (k0_off1_inb L 13)).view.set]{fullShare} asO d (m (xLoc d))))
        ∗ (((xC L 224#32 (k0_off1_inb L 14)).view.loc (V d (cV L) (jV L)) ↦[(xC L 224#32 (k0_off1_inb L 14)).view.set]{fullShare} m (xLoc d)) ∗ ((oC L 224#32 (k0_off1_inb L 14)).view.loc (V d (cV L) (jV L)) ↦[(oC L 224#32 (k0_off1_inb L 14)).view.set]{fullShare} asO d (m (xLoc d))))
        ∗ (((xC L 240#32 (k0_off1_inb L 15)).view.loc (V d (cV L) (jV L)) ↦[(xC L 240#32 (k0_off1_inb L 15)).view.set]{fullShare} m (xLoc d)) ∗ ((oC L 240#32 (k0_off1_inb L 15)).view.loc (V d (cV L) (jV L)) ↦[(oC L 240#32 (k0_off1_inb L 15)).view.set]{fullShare} asO d (m (xLoc d))))) := by
  unfold tileOut
  refine (bigSep_fin16 _).trans ?_
  exact sep_congr' (chunk_exec d L 0 0#32 (by decide) (k0_off1_inb L 0) (m (xLoc d)) (asO d (m (xLoc d))))
    (sep_congr' (chunk_exec d L 1 16#32 (by decide) (k0_off1_inb L 1) (m (xLoc d)) (asO d (m (xLoc d))))
    (sep_congr' (chunk_exec d L 2 32#32 (by decide) (k0_off1_inb L 2) (m (xLoc d)) (asO d (m (xLoc d))))
    (sep_congr' (chunk_exec d L 3 48#32 (by decide) (k0_off1_inb L 3) (m (xLoc d)) (asO d (m (xLoc d))))
    (sep_congr' (chunk_exec d L 4 64#32 (by decide) (k0_off1_inb L 4) (m (xLoc d)) (asO d (m (xLoc d))))
    (sep_congr' (chunk_exec d L 5 80#32 (by decide) (k0_off1_inb L 5) (m (xLoc d)) (asO d (m (xLoc d))))
    (sep_congr' (chunk_exec d L 6 96#32 (by decide) (k0_off1_inb L 6) (m (xLoc d)) (asO d (m (xLoc d))))
    (sep_congr' (chunk_exec d L 7 112#32 (by decide) (k0_off1_inb L 7) (m (xLoc d)) (asO d (m (xLoc d))))
    (sep_congr' (chunk_exec d L 8 128#32 (by decide) (k0_off1_inb L 8) (m (xLoc d)) (asO d (m (xLoc d))))
    (sep_congr' (chunk_exec d L 9 144#32 (by decide) (k0_off1_inb L 9) (m (xLoc d)) (asO d (m (xLoc d))))
    (sep_congr' (chunk_exec d L 10 160#32 (by decide) (k0_off1_inb L 10) (m (xLoc d)) (asO d (m (xLoc d))))
    (sep_congr' (chunk_exec d L 11 176#32 (by decide) (k0_off1_inb L 11) (m (xLoc d)) (asO d (m (xLoc d))))
    (sep_congr' (chunk_exec d L 12 192#32 (by decide) (k0_off1_inb L 12) (m (xLoc d)) (asO d (m (xLoc d))))
    (sep_congr' (chunk_exec d L 13 208#32 (by decide) (k0_off1_inb L 13) (m (xLoc d)) (asO d (m (xLoc d))))
    (sep_congr' (chunk_exec d L 14 224#32 (by decide) (k0_off1_inb L 14) (m (xLoc d)) (asO d (m (xLoc d))))
    (chunk_exec d L 15 240#32 (by decide) (k0_off1_inb L 15) (m (xLoc d)) (asO d (m (xLoc d))))))))))))))))))

/-- A chunk's round trip: the table's chunk is read into a tile buffer (written whole), the buffer is read back
    and written through the same rectangle of the result array. On the chunk's elements the result array then
    holds the table's contents, whatever the buffer and the result array held before. -/
theorem chunk_copied (d : Dev nD) (L : grid0.Coords) (k : BitVec 32) (h : ∀ a, k0_off1 L k a + S16x1024.size a ≤ S8192x1024.size a)
    (bv : View sig .scVector .vmem S16x1024 .f32) (g : bv.ty.Contents (Elt F)) (fo : Buf (Elt F) (oLoc d)) :
    ∀ i ∈ (oC L k h).view.set,
      ((oC L k h).view.writes (Elt F) fo [⟨Rect.whole S16x1024,
          ReadAs.same.apply (View.read (Elt F) bv (View.write (Elt F) bv g
            (ReadAs.same.apply (View.read (Elt F) (xC L k h).view (m (xLoc d)))) Finset.univ))⟩]) i
        = asO d (m (xLoc d)) i := by
  intro i hi
  obtain ⟨y, -, rfl⟩ := Finset.mem_map.mp hi
  simp only [ReadAs.apply_same, View.read_write_univ]
  have e := View.read_writes_cons_emb (oC L k h).view fo (Rect.whole S16x1024) (View.read (Elt F) (xC L k h).view (m (xLoc d))) [] y
  rw [Rect.emb_whole_apply, View.read_apply, View.read_apply] at e
  simp only [cast_eq] at e
  exact e

omit m in
/-- One more recorded wait at no launch index keeps the record admissible. -/
theorem waits_insert {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

/-! ## The body -/

variable [FloatOps F]

theorem pts_b0 (d : Dev nD) (L : grid0.Coords) (f : Buf (Elt F) ((V d (cV L) (jV L)).loc cc0_scratch0)) :
    ((b0 : Memref sig .scVector .vmem S16x1024 .f32).view.loc (V d (cV L) (jV L)) ↦{fullShare} f : sProp 𝕄) = (V d (cV L) (jV L)).loc cc0_scratch0 ↦{fullShare} f := rfl
theorem pts_b1 (d : Dev nD) (L : grid0.Coords) (f : Buf (Elt F) ((V d (cV L) (jV L)).loc cc0_scratch1)) :
    ((b1 : Memref sig .scVector .vmem S16x1024 .f32).view.loc (V d (cV L) (jV L)) ↦{fullShare} f : sProp 𝕄) = (V d (cV L) (jV L)).loc cc0_scratch1 ↦{fullShare} f := rfl
theorem pts_b2 (d : Dev nD) (L : grid0.Coords) (f : Buf (Elt F) ((V d (cV L) (jV L)).loc cc0_scratch2)) :
    ((b2 : Memref sig .scVector .vmem S16x1024 .f32).view.loc (V d (cV L) (jV L)) ↦{fullShare} f : sProp 𝕄) = (V d (cV L) (jV L)).loc cc0_scratch2 ↦{fullShare} f := rfl
theorem pts_b3 (d : Dev nD) (L : grid0.Coords) (f : Buf (Elt F) ((V d (cV L) (jV L)).loc cc0_scratch3)) :
    ((b3 : Memref sig .scVector .vmem S16x1024 .f32).view.loc (V d (cV L) (jV L)) ↦{fullShare} f : sProp 𝕄) = (V d (cV L) (jV L)).loc cc0_scratch3 ↦{fullShare} f := rfl

set_option maxHeartbeats 4000000 in
theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L xV (Memref.isWhole_whole _) oV (Memref.isWhole_whole _) b0 (Memref.isWhole_whole _) b1 (Memref.isWhole_whole _)
            b2 (Memref.isWhole_whole _) b3 (Memref.isWhole_whole _)
            cc0_scratch4 cc0_scratch5 cc0_scratch6 cc0_scratch7 cc0_scratch8 cc0_scratch9 cc0_scratch10 cc0_scratch11)
          fun _ => iprop(tileOut m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [(K (F := F)).scopedBufs_V hF d (cV L) (jV L), SparseCore.Cfg.scopedSems0_V (Val := Elt F) d (cV L) (jV L), ownSems0_V, ownBufs_V,
    tileIn_exec, tileOut_exec]
  iintro ⟨#Hlv, -, ⟨⟨Hx0, Ho0⟩, ⟨Hx1, Ho1⟩, ⟨Hx2, Ho2⟩, ⟨Hx3, Ho3⟩, ⟨Hx4, Ho4⟩, ⟨Hx5, Ho5⟩, ⟨Hx6, Ho6⟩, ⟨Hx7, Ho7⟩, ⟨Hx8, Ho8⟩, ⟨Hx9, Ho9⟩, ⟨Hx10, Ho10⟩, ⟨Hx11, Ho11⟩, ⟨Hx12, Ho12⟩, ⟨Hx13, Ho13⟩, ⟨Hx14, Ho14⟩, ⟨Hx15, Ho15⟩⟩,
    ⟨⟨⟨%f0, Hb0⟩, ⟨%f1, Hb1⟩, ⟨%f2, Hb2⟩, ⟨%f3, Hb3⟩⟩, Hbufs⟩, ⟨⟨Hs4, Hs5, Hs6, Hs7, Hs8, Hs9, Hs10, Hs11⟩, Hsems⟩, HO⟩
  ihave Hmw := ((K (F := F)).mayWaits_none (thr := (V d (cV L) (jV L))) hO) $$ Hlv
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  sl_exec
  sl_step
  -- the sixteen chunks: the table's as handed, the result array's holding the table's contents
  isplitl [Hx0 Ho0 Hx1 Ho1 Hx2 Ho2 Hx3 Ho3 Hx4 Ho4 Hx5 Ho5 Hx6 Ho6 Hx7 Ho7 Hx8 Ho8 Hx9 Ho9 Hx10 Ho10 Hx11 Ho11 Hx12 Ho12 Hx13 Ho13 Hx14 Ho14 Hx15 Ho15]
  ·
    isplitl [Hx0 Ho0]
    · isplitl [Hx0]; · iexact Hx0
      iapply (Entails.of_eq (pointsTo_congr (chunk_copied (F := F) m d L 0#32 (k0_off1_inb L 0) (b0 : Memref sig .scVector .vmem S16x1024 .f32).view _ (m (oLoc d))))); iexact Ho0
    isplitl [Hx1 Ho1]
    · isplitl [Hx1]; · iexact Hx1
      iapply (Entails.of_eq (pointsTo_congr (chunk_copied (F := F) m d L 16#32 (k0_off1_inb L 1) (b1 : Memref sig .scVector .vmem S16x1024 .f32).view _ (m (oLoc d))))); iexact Ho1
    isplitl [Hx2 Ho2]
    · isplitl [Hx2]; · iexact Hx2
      iapply (Entails.of_eq (pointsTo_congr (chunk_copied (F := F) m d L 32#32 (k0_off1_inb L 2) (b2 : Memref sig .scVector .vmem S16x1024 .f32).view _ (m (oLoc d))))); iexact Ho2
    isplitl [Hx3 Ho3]
    · isplitl [Hx3]; · iexact Hx3
      iapply (Entails.of_eq (pointsTo_congr (chunk_copied (F := F) m d L 48#32 (k0_off1_inb L 3) (b3 : Memref sig .scVector .vmem S16x1024 .f32).view _ (m (oLoc d))))); iexact Ho3
    isplitl [Hx4 Ho4]
    · isplitl [Hx4]; · iexact Hx4
      iapply (Entails.of_eq (pointsTo_congr (chunk_copied (F := F) m d L 64#32 (k0_off1_inb L 4) (b0 : Memref sig .scVector .vmem S16x1024 .f32).view _ (m (oLoc d))))); iexact Ho4
    isplitl [Hx5 Ho5]
    · isplitl [Hx5]; · iexact Hx5
      iapply (Entails.of_eq (pointsTo_congr (chunk_copied (F := F) m d L 80#32 (k0_off1_inb L 5) (b1 : Memref sig .scVector .vmem S16x1024 .f32).view _ (m (oLoc d))))); iexact Ho5
    isplitl [Hx6 Ho6]
    · isplitl [Hx6]; · iexact Hx6
      iapply (Entails.of_eq (pointsTo_congr (chunk_copied (F := F) m d L 96#32 (k0_off1_inb L 6) (b2 : Memref sig .scVector .vmem S16x1024 .f32).view _ (m (oLoc d))))); iexact Ho6
    isplitl [Hx7 Ho7]
    · isplitl [Hx7]; · iexact Hx7
      iapply (Entails.of_eq (pointsTo_congr (chunk_copied (F := F) m d L 112#32 (k0_off1_inb L 7) (b3 : Memref sig .scVector .vmem S16x1024 .f32).view _ (m (oLoc d))))); iexact Ho7
    isplitl [Hx8 Ho8]
    · isplitl [Hx8]; · iexact Hx8
      iapply (Entails.of_eq (pointsTo_congr (chunk_copied (F := F) m d L 128#32 (k0_off1_inb L 8) (b0 : Memref sig .scVector .vmem S16x1024 .f32).view _ (m (oLoc d))))); iexact Ho8
    isplitl [Hx9 Ho9]
    · isplitl [Hx9]; · iexact Hx9
      iapply (Entails.of_eq (pointsTo_congr (chunk_copied (F := F) m d L 144#32 (k0_off1_inb L 9) (b1 : Memref sig .scVector .vmem S16x1024 .f32).view _ (m (oLoc d))))); iexact Ho9
    isplitl [Hx10 Ho10]
    · isplitl [Hx10]; · iexact Hx10
      iapply (Entails.of_eq (pointsTo_congr (chunk_copied (F := F) m d L 160#32 (k0_off1_inb L 10) (b2 : Memref sig .scVector .vmem S16x1024 .f32).view _ (m (oLoc d))))); iexact Ho10
    isplitl [Hx11 Ho11]
    · isplitl [Hx11]; · iexact Hx11
      iapply (Entails.of_eq (pointsTo_congr (chunk_copied (F := F) m d L 176#32 (k0_off1_inb L 11) (b3 : Memref sig .scVector .vmem S16x1024 .f32).view _ (m (oLoc d))))); iexact Ho11
    isplitl [Hx12 Ho12]
    · isplitl [Hx12]; · iexact Hx12
      iapply (Entails.of_eq (pointsTo_congr (chunk_copied (F := F) m d L 192#32 (k0_off1_inb L 12) (b0 : Memref sig .scVector .vmem S16x1024 .f32).view _ (m (oLoc d))))); iexact Ho12
    isplitl [Hx13 Ho13]
    · isplitl [Hx13]; · iexact Hx13
      iapply (Entails.of_eq (pointsTo_congr (chunk_copied (F := F) m d L 208#32 (k0_off1_inb L 13) (b1 : Memref sig .scVector .vmem S16x1024 .f32).view _ (m (oLoc d))))); iexact Ho13
    isplitl [Hx14 Ho14]
    · isplitl [Hx14]; · iexact Hx14
      iapply (Entails.of_eq (pointsTo_congr (chunk_copied (F := F) m d L 224#32 (k0_off1_inb L 14) (b2 : Memref sig .scVector .vmem S16x1024 .f32).view _ (m (oLoc d))))); iexact Ho14
    isplitl [Hx15]; · iexact Hx15
    iapply (Entails.of_eq (pointsTo_congr (chunk_copied (F := F) m d L 240#32 (k0_off1_inb L 15) (b3 : Memref sig .scVector .vmem S16x1024 .f32).view _ (m (oLoc d))))); iexact Ho15
  -- the tile buffers, at whatever the loads left in them
  isplitl [Hb0 Hb1 Hb2 Hb3 Hbufs]
  · isplitl [Hb0 Hb1 Hb2 Hb3]
    · isplitl [Hb0]; · iexists _; iexact Hb0
      isplitl [Hb1]; · iexists _; iexact Hb1
      isplitl [Hb2]; · iexists _; iexact Hb2
      iexists _; iexact Hb3
    · iexact Hbufs
  -- the semaphores, back at zero
  isplitl [Hs4 Hs5 Hs6 Hs7 Hs8 Hs9 Hs10 Hs11 Hsems]
  · isplitl [Hs4 Hs5 Hs6 Hs7 Hs8 Hs9 Hs10 Hs11]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    · iexact Hsems
  -- the waits recorded: all on the kernel's own semaphores, at no launch index
  iexists _; isplitr
  swap
  · iexact HO
  · ipureintro
    repeat (first | exact fun p hp => Or.inl hp | refine waits_insert ?_ rfl)

end Cert.KernelIdeal.Copy

end
-- ==== Proof.LaunchIdeal.lean ====
/-
  The program's run. Each tile's task is the body proved for a tile at symbolic coordinates; a SparseCore's
  operands are by definition its sixteen tiles' chunks, so splitting them among the tiles and gathering them
  back moves nothing. On the TensorCore, the call takes the table and the result array whole (the chunks
  partition them), and brings both back with the result array holding the table's contents; the host reshape
  then reads that array into the program's result. Every weakly fair execution of the thirty-five threads
  therefore ends, faults nowhere, leaves the table unchanged and the result at the table's contents under a
  leading unit axis.
-/
import proofs.«213488_g12206297055238_cont_main3_411_9_alg».proof.Proof.BodyIdeal

noncomputable section

namespace Cert.KernelIdeal.Copy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile hcore0 hsub0 (fun c s => cc0__copy_body (coordsV c s)
          xV (Memref.isWhole_whole _) oV (Memref.isWhole_whole _) b0 (Memref.isWhole_whole _) b1 (Memref.isWhole_whole _)
          b2 (Memref.isWhole_whole _) b3 (Memref.isWhole_whole _)
          cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task is the body at the tile's coordinates. -/
theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (coordsV ⟨_, hc.1⟩ ⟨_, hc.2⟩) O W hO).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles' chunks, and its results theirs. -/
theorem vecSplit : (K (F := F)).VecSplit' (P m) 0 := by
  intro d c
  show (bigSep Finset.univ fun s : Fin (grid0.bound 1) => tileIn m d (coordsV (Fin.cast nCore_zero c) s)) ⊢ |={Set.univ}=> iprop(
      (bigSep Finset.univ fun i : Fin ((K (F := F)).nSub 0) => tileIn m d (coordsV (Fin.cast nCore_zero c) (Fin.cast nSub_zero i)))
      ∗ ((bigSep Finset.univ fun i : Fin ((K (F := F)).nSub 0) => tileOut m d (coordsV (Fin.cast nCore_zero c) (Fin.cast nSub_zero i)))
          -∗ bigSep Finset.univ fun s : Fin (grid0.bound 1) => tileOut m d (coordsV (Fin.cast nCore_zero c) s)))
  rw [bigSep_tasks (F := F) (fun s => tileIn m d (coordsV (Fin.cast nCore_zero c) s)),
    bigSep_tasks (F := F) (fun s => tileOut m d (coordsV (Fin.cast nCore_zero c) s))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev o' : DevRef τ sig := Proc.devRef .tc (main_v0 : Ref sig .tc)
abbrev r' : DevRef τ sig := Proc.devRef .tc (main_v1 : Ref sig .tc)
/-- The host operation after the call: the result array read into the program's result under a leading unit axis. -/
abbrev opRe : HloOp τ sig (Elt F) := StableHlo.reshape main_v0 main_v1 rfl shapeCasts_S8192x1024_S1x8192x1024

/-- The TensorCore's arrays, all unscoped: the table, the kernel's result array, the program's result. -/
abbrev S3 : Finset (DevRef τ sig) := {x', o', r'}

omit [FloatOps F] in
theorem held_S3 (d : Dev nD) (W : Valuation τ sig (Elt F)) :
    (held (T d) S3 W : sProp 𝕄) = iprop((xLoc d ↦{fullShare} W x') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch valuation; after the call, the result array at what the tiles left. -/
def V0 (d : Dev nD) : Valuation τ sig (Elt F) := fun b => m (d, b)
def V1 (d : Dev nD) (f : Buf (Elt F) (oLoc d)) : Valuation τ sig (Elt F) := Function.update (V0 m d) o' f

omit [FloatOps F] in
theorem unscoped_held (d : Dev nD) : (unscopedBufs d (fun b => m ((SparseCore.T d).loc b)) : sProp 𝕄) = held (T d) S3 (V0 m d) := by
  rw [unscopedBufs_eq, held_S3]; rfl

omit [FloatOps F] in
theorem V1_x (d : Dev nD) (f : Buf (Elt F) (oLoc d)) : V1 m d f x' = m (xLoc d) := Function.update_of_ne (show x' ≠ o' by decide) _ _
omit [FloatOps F] in
theorem V1_o (d : Dev nD) (f : Buf (Elt F) (oLoc d)) : V1 m d f o' = f := Function.update_self _ _ _
omit [FloatOps F] in
theorem V1_r (d : Dev nD) (f : Buf (Elt F) (oLoc d)) : V1 m d f r' = V0 m d r' := Function.update_of_ne (show r' ≠ o' by decide) _ _

/-- What the program's result holds at the end: the host operation's result at the table's contents. -/
def resOf (d : Dev nD) : Buf (Elt F) (rLoc d) := (opRe (F := F)).result (V1 m d (asO d (m (xLoc d)))) r'

theorem held_after (d : Dev nD) :
    (held (T d) S3 ((opRe (F := F)).result (V1 m d (asO d (m (xLoc d))))) : sProp 𝕄)
      = iprop((xLoc d ↦{fullShare} m (xLoc d)) ∗ (oLoc d ↦{fullShare} asO d (m (xLoc d))) ∗ rLoc d ↦{fullShare} resOf m d) := by
  rw [held_S3,
    (opRe (F := F)).result_of_not_mem (V1 m d (asO d (m (xLoc d)))) (b := x') (show x' ∉ ({r'} : Finset (DevRef τ sig)) by decide), V1_x,
    (opRe (F := F)).result_of_not_mem (V1 m d (asO d (m (xLoc d)))) (b := o') (show o' ∉ ({r'} : Finset (DevRef τ sig)) by decide), V1_o]
  rfl

/-- What the call takes for the two SparseCores: the table and the result array whole; -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  show (bigSep Finset.univ fun c : Fin ((K (F := F)).nCore 0) => bigSep Finset.univ fun s : Fin (grid0.bound 1) => tileIn m d (coordsV (Fin.cast nCore_zero c) s)) = _
  rw [bigSep_cores (F := F) (fun c => bigSep Finset.univ fun s : Fin (grid0.bound 1) => tileIn m d (coordsV c s)), xChunks, oChunks]
  unfold tileIn
  simp only [bigSep_sep']
/-- and what it hands back: both whole again, the result array at the table's contents. -/
theorem dn0_eq (d : Dev nD) : (bigSep Finset.univ fun c : Fin ((K (F := F)).nCore 0) => (P m).dn 0 d c)
    = iprop((xLoc d ↦{fullShare} m (xLoc d)) ∗ oLoc d ↦{fullShare} asO d (m (xLoc d))) := by
  show (bigSep Finset.univ fun c : Fin ((K (F := F)).nCore 0) => bigSep Finset.univ fun s : Fin (grid0.bound 1) => tileOut m d (coordsV (Fin.cast nCore_zero c) s)) = _
  rw [bigSep_cores (F := F) (fun c => bigSep Finset.univ fun s : Fin (grid0.bound 1) => tileOut m d (coordsV c s)), xChunks, oChunks]
  unfold tileOut
  simp only [bigSep_sep']

theorem hRe : (opRe (F := F)).bufs ⊆ S3 := show ({o', r'} : Finset (DevRef τ sig)) ⊆ S3 by decide

/-- What @main leaves the claim: the table at its launch contents, the result at the reshape of them. -/
abbrev FIN (d : Dev nD) : sProp 𝕄 := iprop((xLoc d ↦{fullShare} m (xLoc d)) ∗ rLoc d ↦{fullShare} resOf m d)

/-- @main on device `d`'s TensorCore: the call (from the table and the result array whole), then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  ihave Hh := (Entails.of_eq (held_S3 (F := F) d _)) $$ Hheld
  icases Hh with ⟨Hx, Ho, Hr⟩
  iapply ((K (F := F)).wp_run (D (F := F)) 𝒱 (EH := EH) (P := P m) κ d 0) $$ [Hst Hx Ho Hb Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opRe) (S := S3) hRe (V := V1 m d (asO d (m (xLoc d))))) $$ [Hb Hx Ho Hr]
  · isplitl [Hb]; · iexact Hb
    rw [held_S3, V1_x, V1_o, V1_r]
    isplitl [Hx]; · iexact Hx
    isplitl [Ho]; · iexact Ho
    iexact Hr
  iintro ⟨Hb, Hheld⟩
  ihave Hh := (Entails.of_eq (held_after (F := F) m d)) $$ Hheld
  icases Hh with ⟨Hx, -, Hr⟩
  rw [wp_ret]; imodintro; imodintro
  isplitl [Hst]; · iexact Hst
  isplitl [Hx]; · iexact Hx
  iexact Hr

def fq (d : Dev nD) (s' : Phys nD τ sig (Elt F)) : Prop := s'.mem.mem (xLoc d) = m (xLoc d) ∧ s'.mem.mem (rLoc d) = resOf m d

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resOf m d)) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (rLoc c) = resOf m c ∧ r.2.mem (xLoc c) = m (xLoc c)

/-- Every weakly fair execution of the device's threads terminates, nothing faulting, with the program's result at
    the reshape of the table's launch contents and the table unchanged. -/
theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2, (h c).1⟩)

/-- The program's result is the table's launch contents under a leading unit axis. -/
theorem resOf_eq (d : Dev nD) :
    resOf m d = shapeCast S1x8192x1024 (m (xLoc d)) shapeCasts_S8192x1024_S1x8192x1024 := by
  unfold resOf
  rw [StableHlo.reshape_result, V1_o]
  rfl

end Cert.KernelIdeal.Copy

end
-- ==== Proof.RowsSpec.lean ====
/-
  The function both programs compute: the table's rows under a new leading axis of extent one.
  Entry (0, r, k) of the result is entry (r, k) of the table; no arithmetic is done on the entries,
  so the statement holds for any element type.
-/
import Idealize.ShloMosaic.Lib.ValueIdx

namespace Cert.Spec

open Idealize.ShloMosaic

/-- The 8192 x 1024 table read as a 1 x 8192 x 1024 array: entry (0, r, k) is the table's entry (r, k). -/
def rows3 {α : Type} (x : (⟨2, ![8192, 1024]⟩ : Shape).Idx → α) : (⟨3, ![1, 8192, 1024]⟩ : Shape).Idx → α :=
  fun i => x (ValueIdx.ix2 (n0 := 8192) (n1 := 1024) (i 1) (i 2))

theorem rows3_apply {α : Type} (x : (⟨2, ![8192, 1024]⟩ : Shape).Idx → α) (i : (⟨3, ![1, 8192, 1024]⟩ : Shape).Idx) :
    rows3 x i = x (ValueIdx.ix2 (n0 := 8192) (n1 := 1024) (i 1) (i 2)) := rfl

end Cert.Spec
-- ==== Proof.RefOps.lean ====
/-
  The reference program's run, read back. @main is an iota of the 8192 row numbers, its reshape to [1, 8192], and a
  call of the row-lookup function, whose body calls the three-way select: twenty-five host operations in all once
  the two calls are unfolded at their call sites. They are listed here in order over the buffers of the call
  records; the program is that straight line, so every weakly fair execution terminates with each buffer at the
  fold of the operations' results over the launch contents. Read at the result buffer the fold is the composed
  term `out` of the table's launch contents; the table's own buffer is written by no operation.
-/
import proofs.«213488_g12206297055238_cont_main3_411_9_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-five operations in order, the calls unfolded: the iota and its reshape; then the lookup
    function's — the comparison with zero, the sum with 8192 and the callee's select (a negative row number
    wraps around), the index's broadcast to [1, 8192, 1], the two bound checks and their conjunction reduced
    over the unit axis, the gather, and the final select between the gathered rows and the filler constant. -/
abbrev ops : List (HloOp τ sig (Elt F)) :=
  [ nullary main_v0 (iotaInDim S8192 32 0),
    reshape main_v0 main_v1 rfl shapeCasts_S8192_S1x8192,
    TRef.nullary main_call0.c (constantI S_ 32 0#32),
    TRef.unary main_call0.c main_call0.v0 (broadcastInDim S1x8192 ![] bcast_S_S1x8192),
    TRef.binary (.of main_v1) main_call0.v0 main_call0.v1 (cmpi .slt),
    TRef.nullary main_call0.c_0 (constantI S_ 32 8192#32),
    TRef.unary main_call0.c_0 main_call0.v2 (broadcastInDim S1x8192 ![] bcast_S_S1x8192),
    TRef.binary (.of main_v1) main_call0.v2 main_call0.v3 addi,
    TRef.ternary main_call0.v1 main_call0.v3 (.of main_v1) main_call0.call0.v0 select,
    TRef.unary main_call0.call0.v0 main_call0.v5 (broadcastInDim S1x8192x1 ![0, 1] bcast_S1x8192_S1x8192x1_0_1),
    TRef.nullary main_call0.c_1 (constantI S1 32 8191#32),
    TRef.nullary main_call0.c_2 (constantI S_ 32 0#32),
    TRef.unary main_call0.c_2 main_call0.v6 (broadcastInDim S1x8192x1 ![] bcast_S_S1x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x8192x1 ![0, 1, 2] bcast_S1x1x1_S1x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x8192x1_S1x8192_d2 h_S_),
    TRef.binary (.of main_arg0) main_call0.v5 main_call0.v13 (fun x i => Host.gather gather_S8192x1024_S1x8192x1_S1x8192x1024_2_0_n_n_0_2_11024 x i),
    TRef.unary main_call0.v12 main_call0.v14 (broadcastInDim S1x8192x1024 ![0, 1] bcast_S1x8192_S1x8192x1024_0_1),
    TRef.nullary main_call0.cst (constant S_ .f32 0x7FC00000#32),
    TRef.unary main_call0.cst main_call0.v15 (broadcastInDim S1x8192x1024 ![] bcast_S_S1x8192x1024),
    TRef.ternary main_call0.v14 main_call0.v13 main_call0.v15 main_call0.v16 select ]

set_option maxRecDepth 1024 in
/-- @main is that straight line: with the two functions' definitions unfolded at their calls, both sides are one
    chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of
    @main terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term

What the result buffer holds, as a function of the table: the operations' functions composed in the order the
program applies them, each intermediate value named once. -/

/-- The row numbers 0 … 8191 laid out as the [1, 8192] array of indices. -/
def rowIdx : IVec S1x8192 32 :=
  shapeCast S1x8192 (iotaInDim S8192 32 0) shapeCasts_S8192_S1x8192

/-- The indices with a negative one moved up by the table's height: the callee's select on "index < 0". -/
def wrapped : IVec S1x8192 32 :=
  select (cmpi .slt rowIdx (broadcastInDim S1x8192 ![] bcast_S_S1x8192 (constantI S_ 32 0#32)))
    (addi rowIdx (broadcastInDim S1x8192 ![] bcast_S_S1x8192 (constantI S_ 32 8192#32))) rowIdx

/-- The start indices the gather reads: the wrapped indices under a trailing unit axis. -/
def starts : IVec S1x8192x1 32 :=
  broadcastInDim S1x8192x1 ![0, 1] bcast_S1x8192_S1x8192x1_0_1 wrapped

/-- Per start index, whether it lies in 0 … 8191. -/
def inBounds : IVec S1x8192x1 1 :=
  andi (cmpi .sge starts (broadcastInDim S1x8192x1 ![] bcast_S_S1x8192x1 (constantI S_ 32 0#32)))
    (cmpi .sle starts (broadcastInDim S1x8192x1 ![0, 1, 2] bcast_S1x1x1_S1x8192x1_0_1_2
      (broadcastInDim S1x1x1 ![2] bcast_S1_S1x1x1_2 (constantI S1 32 8191#32))))

/-- Per row, the conjunction of that row's bound checks over the unit axis. -/
def mask : IVec S1x8192 1 :=
  Host.reduce IntOp.andi inBounds (constantI S_ 1 1#1) reducesTo_S1x8192x1_S1x8192_d2 h_S_

/-- The result as a function of the table: the gathered rows where the row's mask is set, the filler constant
    elsewhere. -/
def out (x : FVec F S8192x1024 .f32) : FVec F S1x8192x1024 .f32 :=
  select (broadcastInDim S1x8192x1024 ![0, 1] bcast_S1x8192_S1x8192x1024_0_1 mask)
    (Host.gather gather_S8192x1024_S1x8192x1_S1x8192x1024_2_0_n_n_0_2_11024 x starts)
    (broadcastInDim S1x8192x1024 ![] bcast_S_S1x8192x1024 (constant S_ .f32 0x7FC00000#32))

/-- Contents moved to a typed reference's buffer type and back are the contents. -/
theorem ofBuf_toBuf {Val : EltTy → Type} {T : BufTy} (x : TRef sig T) (v : T.Contents Val) : x.ofBuf (x.toBuf v) = v := by
  obtain ⟨r, h, _, _⟩ := x
  subst h
  rfl

attribute [local irreducible] Host.reduce Host.gather in
set_option maxHeartbeats 400000 in
/-- The fold at the result buffer is `out` of the table's contents: each operation's result at its own buffer is
    its function's value and at any other buffer what was there; the contents moved to a typed reference's
    buffer type and back are the contents, and the remaining moves are the identity at these literal
    references. The reduction and the gather stay folded meanwhile (the equation never looks inside them). -/
theorem out_eq (V : Valuation τ sig (Elt F)) :
    after ops V (main_v2 : DevRef τ sig) = out (V (main_arg0 : DevRef τ sig)) := by
  after_results_simp
  simp only [ofBuf_toBuf]
  unfold out mask inBounds starts wrapped rowIdx
  rfl

/-- No operation writes the table's buffer. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result buffer at `out` of the table's launch contents and the table unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg0))
      ∧ r.2.mem ((c.tc : Thread nD τ).loc main_arg0) = m ((c.tc : Thread nD τ).loc main_arg0) :=
  (θ_run defs _ _).mono (fun _ h c => ⟨(h c main_v2).trans (out_eq _), (h c main_arg0).trans (arg0_eq _)⟩)
    (run_after m ρ)

end Cert.ReferenceIdeal.RefRun

end
-- ==== Proof.RefLemmas.lean ====
/-
  Three general facts the reference's value rests on, none of them about this program's shapes.
  A `stablehlo.gather` that takes whole rows of a rank-2 table — start indices of shape [R, C, 1], the one
  component of a start index naming the row — reads, at result index (t, j, k), the table at the row the start
  index (t, j, 0) names (read signed and clamped into the table) and column k. A `stablehlo.reduce` by `and`
  over one-bit words that are all 1, from an initial value 1, is 1 at every result index. A natural number
  below 2^31 written as a 32-bit word reads back, signed, as itself.
-/
import Idealize.ShloMosaic.Lib.ValueIdx
import Idealize.ShloMosaic.Lib.ReduceAll
import Idealize.ShloMosaic.Lib.StableHlo.Run

noncomputable section

namespace Cert.ReferenceIdeal.RefRun

open Idealize.ShloMosaic Idealize.ShloMosaic.ValueIdx

/-! ## Words -/

/-- A natural number below 2^31, as a 32-bit word, reads back signed as itself. -/
theorem toInt_ofNat_of_lt (n : Nat) (h : n < 2 ^ 31) : (BitVec.ofNat 32 n).toInt = (n : Int) := by
  rw [BitVec.toInt_ofNat']
  exact Int.bmod_eq_of_le (by omega) (by omega)

/-! ## A reduction by `and` of all-ones -/

/-- A left fold by `and` over one-bit words that starts at 1 and meets only 1s is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_of_all_one f l _ (IntOp.andi_eq_one.2 ⟨h, hl a List.mem_cons_self⟩)
      fun n hn => hl n (List.mem_cons_of_mem _ hn)

/-- A `stablehlo.reduce` by `and` of an array of 1s from an initial value 1 is 1 everywhere. -/
theorem reduce_andi_of_all_one {s t u : Shape} {axes : List (Fin s.rank)} (x : s.Idx → BitVec 1)
    (init : u.Idx → BitVec 1) (h : s.ReducesTo axes t) (hu : 0 < u.numel) (hx : ∀ i, x i = 1#1)
    (hinit : ∀ k, init k = 1#1) (j : t.Idx) : Host.reduce IntOp.andi x init h hu j = 1#1 := by
  rw [Host.reduce_eq_foldl]
  exact foldl_andi_of_all_one x _ _ (hinit _) fun n _ => hx n

/-! ## A gather of whole rows, read at an index -/

section Rows
variable {α : Type}

/-- The dimension numbers of a gather of whole rows: operand [N, K], start indices [R, C, 1], result [R, C, K];
    the operand's row axis is collapsed and named by the start index, its column axis is the result's offset
    axis. -/
abbrev rowDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The start-indices index (t, j, 0) of result index (t, j, k). -/
abbrev rowStartIdx {R C K : Nat} (y : (⟨3, ![R, C, K]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The gather read at (t, j, k): the table at the row the start index (t, j, 0) names, read signed and
    clamped into [0, N − 1], and at column k. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (y : (⟨3, ![R, C, K]⟩ : Shape).Idx) :
    Host.gather (rowDims N K R C wf) x idx y
      = x (ix2 ⟨min (idx (rowStartIdx y)).toInt.toNat (N - 1), by omega⟩ ⟨(y 2).val, (y 2).isLt⟩) := by
  unfold Host.gather
  congr 1
  funext a
  refine Fin.ext ?_
  match a with
  | ⟨0, _⟩ =>
    show (rowDims N K R C wf).start y idx 0 + (rowDims N K R C wf).batchCoord y 0 + (rowDims N K R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R C wf).startIndexMap from List.mem_singleton.mpr rfl)]
    have hsi : (rowDims N K R C wf).siIdx y ⟨List.idxOf (0 : Fin 2) (rowDims N K R C wf).startIndexMap,
        List.idxOf_lt_length_iff.2 (List.mem_singleton.mpr rfl)⟩ = rowStartIdx y := by
      funext b; refine Fin.ext ?_
      match b with
      | ⟨0, _⟩ => rfl
      | ⟨1, _⟩ => rfl
      | ⟨2, _⟩ => rfl
    rw [hsi]
    rfl
  | ⟨1, _⟩ =>
    show (rowDims N K R C wf).start y idx 1 + (rowDims N K R C wf).batchCoord y 1 + (rowDims N K R C wf).offCoord y 1 = (y 2).val
    have hs : (rowDims N K R C wf).start y idx 1 = 0 := by
      unfold GatherDims.start
      rw [dif_neg (show (1 : Fin 2) ∉ ([0] : List (Fin 2)) by decide)]
    have ho : (rowDims N K R C wf).offCoord y 1 = (y 2).val := by
      unfold GatherDims.offCoord
      rw [dif_pos ((GatherDims.mem_sKept _ _).mpr ⟨(show (1 : Fin 2) ∉ ([0] : List (Fin 2)) by decide), List.not_mem_nil⟩)]
      rfl
    rw [hs, GatherDims.batchCoord_eq_zero _ _ _ List.not_mem_nil, ho]
    omega

end Rows

end Cert.ReferenceIdeal.RefRun

end
-- ==== Proof.RefValue.lean ====
/-
  The reference's value: the composed term `out` is the table's rows. Everything is read at ONE index (a, r, k)
  of the result. The row numbers are the iota's, so the index array reads r at (a, r); r is below 2^13, hence
  non-negative as a signed 32-bit word, and the select on "index < 0" keeps it; its broadcast under a unit axis
  reads r at (a, r, 0). Both bound checks 0 ≤ r and r ≤ 8191 hold, at every start index, so their conjunction
  reduced over the unit axis is 1 at every row and the final select keeps the gathered value. The gather reads
  the table at the row its start index names, clamped into 0 … 8191 — r again — and at column k.
-/
import proofs.«213488_g12206297055238_cont_main3_411_9_alg».proof.Proof.RefOps
import proofs.«213488_g12206297055238_cont_main3_411_9_alg».proof.Proof.RefLemmas
import proofs.«213488_g12206297055238_cont_main3_411_9_alg».proof.Proof.RowsSpec
import Idealize.ShloMosaic.Lib.Pipeline.Value

noncomputable section

namespace Cert.ReferenceIdeal.RefRun

open Cert.ReferenceIdeal Cert.ReferenceIdeal.Gen Idealize.ShloMosaic Idealize.ShloMosaic.ValueIdx

variable {F : FTy → Type} [FloatOps F]

/-! ## The index arrays at an index -/

/-- The index array reads the row number: a reshape that adds a leading unit axis keeps the iota's coordinate. -/
theorem rowIdx_at (a : Fin 1) (r : Fin 8192) : rowIdx (ix2 a r) = BitVec.ofNat 32 r.val := by
  unfold rowIdx
  exact shapeCast_addUnit_apply ![8192] (iotaInDim S8192 32 0) shapeCasts_S8192_S1x8192 (ix2 a r)

/-- A row number is non-negative as a signed word, so the select on "index < 0" keeps it. -/
theorem wrapped_at (a : Fin 1) (r : Fin 8192) : wrapped (ix2 a r) = BitVec.ofNat 32 r.val := by
  have hr : r.val < 2 ^ 31 := by have := r.isLt; omega
  have hc : IntOp.cmpi .slt (rowIdx (ix2 a r)) 0#32 = 0#1 := by
    refine eq_zero_of_ne_one fun h => ?_
    rw [IntOp.cmpi_slt, rowIdx_at, toInt_ofNat_of_lt _ hr, toInt_ofNat_of_lt 0 (by omega)] at h
    omega
  show Scalar.select (IntOp.cmpi .slt (rowIdx (ix2 a r)) 0#32) _ (rowIdx (ix2 a r)) = _
  rw [hc, select_zero, rowIdx_at]

/-- The start index at (a, r, 0) is the row number. -/
theorem starts_at (a : Fin 1) (r : Fin 8192) (b : Fin 1) : starts (ix3 a r b) = BitVec.ofNat 32 r.val := by
  unfold starts
  rw [broadcastInDim_apply ![0, 1] bcast_S1x8192_S1x8192x1_0_1 wrapped (ix3 a r b) (ix2 0 r)
    (fun c => match c with | ⟨0, _⟩ => rfl | ⟨1, _⟩ => rfl), wrapped_at]

/-- Both bound checks hold at every start index. -/
theorem inBounds_at (a : Fin 1) (r : Fin 8192) (b : Fin 1) : inBounds (ix3 a r b) = 1#1 := by
  have hr : r.val < 2 ^ 31 := by have := r.isLt; omega
  have hlt := r.isLt
  show IntOp.andi (IntOp.cmpi .sge (starts (ix3 a r b)) 0#32) (IntOp.cmpi .sle (starts (ix3 a r b)) 8191#32) = 1#1
  rw [IntOp.andi_eq_one, IntOp.cmpi_sge, IntOp.cmpi_sle, starts_at, toInt_ofNat_of_lt _ hr,
    toInt_ofNat_of_lt 0 (by omega), toInt_ofNat_of_lt 8191 (by omega)]
  constructor <;> omega

theorem inBounds_all (j : S1x8192x1.Idx) : inBounds j = 1#1 := by
  rw [eq_ix3 j]
  exact inBounds_at _ _ _

/-- The mask is 1 at every row. -/
theorem mask_all (j : S1x8192.Idx) : mask j = 1#1 := by
  unfold mask
  exact reduce_andi_of_all_one inBounds _ _ _ inBounds_all (fun _ => rfl) j

/-! ## The result at an index -/

/-- At (a, r, k) the result is the table's entry (r, k). -/
theorem out_at (x : FVec F S8192x1024 .f32) (a : Fin 1) (r : Fin 8192) (k : Fin 1024) :
    out x (ix3 a r k) = x (ix2 r k) := by
  have hr : r.val < 2 ^ 31 := by have := r.isLt; omega
  have hlt := r.isLt
  have hm : broadcastInDim S1x8192x1024 ![0, 1] bcast_S1x8192_S1x8192x1024_0_1 mask (ix3 a r k) = 1#1 := mask_all _
  have hs : starts (rowStartIdx (ix3 a r k)) = BitVec.ofNat 32 r.val := starts_at a r 0
  show Scalar.select (broadcastInDim S1x8192x1024 ![0, 1] bcast_S1x8192_S1x8192x1024_0_1 mask (ix3 a r k))
      (Host.gather (rowDims 8192 1024 1 8192 gather_S8192x1024_S1x8192x1_S1x8192x1024_2_0_n_n_0_2_11024_wf) x starts (ix3 a r k)) _ = _
  rw [hm, select_one, gather_rows_apply (by omega)]
  refine congrArg x (funext fun d => Fin.ext ?_)
  match d with
  | ⟨0, _⟩ =>
    show min (starts (rowStartIdx (ix3 a r k))).toInt.toNat (8192 - 1) = r.val
    rw [hs, toInt_ofNat_of_lt _ hr]
    omega
  | ⟨1, _⟩ => rfl

/-- The composed term is the table's rows under a new leading unit axis. -/
theorem out_eq_rows3 (x : FVec F S8192x1024 .f32) : out x = Cert.Spec.rows3 x := by
  funext i
  rw [eq_ix3 i]
  exact out_at x _ _ _

end Cert.ReferenceIdeal.RefRun

end
-- ==== Proof.RefRun.lean ====
/-
  The reference's run, in one statement: from any memory with zero counters every weakly fair execution of the
  reference program terminates with its result buffer at the table's rows under a new leading unit axis — entry
  (0, r, k) the table's entry (r, k) — and the table's buffer unchanged. The run reads the result back as the
  composed term of the table's launch contents; the value module shows that term is the rows.
-/
import proofs.«213488_g12206297055238_cont_main3_411_9_alg».proof.Proof.Gen.ReferenceIdeal
import proofs.«213488_g12206297055238_cont_main3_411_9_alg».proof.Proof.RowsSpec
import proofs.«213488_g12206297055238_cont_main3_411_9_alg».proof.Proof.RefOps
import proofs.«213488_g12206297055238_cont_main3_411_9_alg».proof.Proof.RefValue
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.Spec.rows3 (m ((c.tc : Thread nD τ).loc main_arg0))
      ∧ r.2.mem ((c.tc : Thread nD τ).loc main_arg0) = m ((c.tc : Thread nD τ).loc main_arg0) :=
  (θ_run defs _ _).mono (fun _ h c => ⟨(h c).1.trans (out_eq_rows3 _), (h c).2⟩) (run_out m ρ)

end Cert.ReferenceIdeal.RefRun

end
-- ==== Proof.RowsCast.lean ====
/-
  A reshape of the 8192 x 1024 table to 1 x 8192 x 1024 is the table's rows under a new leading unit axis: the two
  shapes list the same elements in the same row-major order, and the new axis has extent one, so entry (0, r, k)
  of the result sits at row-major position r * 1024 + k, the position of the table's entry (r, k).
-/
import proofs.«213488_g12206297055238_cont_main3_411_9_alg».proof.Proof.RowsSpec
import Idealize.ShloMosaic.Lib.ValueIdx
import Idealize.ShloMosaic.Lib.Pipeline.Value

namespace Cert.Spec

open Idealize.ShloMosaic Idealize.ShloMosaic.ValueIdx

/-- The reshape read at an index: a shape cast that adds a leading unit axis reads, at (0, r, k), its operand at
    the remaining coordinates (r, k). -/
theorem shapeCast_rows3 {α : Type} (x : (⟨2, ![8192, 1024]⟩ : Shape).Idx → α)
    (h : (⟨2, ![8192, 1024]⟩ : Shape).ShapeCasts ⟨3, ![1, 8192, 1024]⟩) :
    shapeCast (⟨3, ![1, 8192, 1024]⟩ : Shape) x h = Cert.Spec.rows3 x := by
  funext i
  rw [rows3_apply]
  refine (shapeCast_addUnit_apply ![8192, 1024] x h i).trans (congrArg x (funext fun a => ?_))
  match a with
  | ⟨0, _⟩ => rfl
  | ⟨1, _⟩ => rfl

end Cert.Spec
-- ==== Proof.lean ====
/-
  The claim's five parts for the copy kernel against `jnp.take` at the indices 0 … 8191.
  Both programs compute the table's rows under a new leading axis of extent one. The kernel's thirty-two tiles each
  copy their own 256 rows chunk by chunk through tile buffers (Proof/Body*.lean), the chunks partition the table
  (Proof/Setup*.lean), and a host reshape reads the copy into the result (Proof/Launch*.lean: the run of all
  thirty-five threads, once for the word-level program and once for the idealized one, the same text at the two
  float instances). The reference gathers row `i` at index `i`; every index is in range, so its fill value is
  never selected (Proof/RefRun.lean). No arithmetic is done on the entries, so the two results agree entry by
  entry at every input, finite or not: the precondition is never opened.
-/
import proofs.«213488_g12206297055238_cont_main3_411_9_alg».proof.Defs
import proofs.«213488_g12206297055238_cont_main3_411_9_alg».proof.Proof.Gen.Kernel
import proofs.«213488_g12206297055238_cont_main3_411_9_alg».proof.Proof.Gen.Kernel.Skeleton
import proofs.«213488_g12206297055238_cont_main3_411_9_alg».proof.Proof.Gen.KernelIdeal
import proofs.«213488_g12206297055238_cont_main3_411_9_alg».proof.Proof.Gen.KernelIdeal.Skeleton
import proofs.«213488_g12206297055238_cont_main3_411_9_alg».proof.Proof.Gen.ReferenceIdeal
import proofs.«213488_g12206297055238_cont_main3_411_9_alg».proof.Proof.Gen.Pre_finite_inputs
import proofs.«213488_g12206297055238_cont_main3_411_9_alg».proof.Proof.LaunchBits
import proofs.«213488_g12206297055238_cont_main3_411_9_alg».proof.Proof.LaunchIdeal
import proofs.«213488_g12206297055238_cont_main3_411_9_alg».proof.Proof.RefRun
import proofs.«213488_g12206297055238_cont_main3_411_9_alg».proof.Proof.RowsCast
import Idealize.ShloMosaic.Adequacy
import Idealize.ShloMosaic.Init

noncomputable section

namespace Cert.Proof

open Idealize.ShloMosaic Idealize.SL.Sem

/-- The word-level kernel runs to the end, faults nowhere and leaves the table unchanged. -/
theorem frame_kernel : Cert.frame_Kernel := fun m ρ _ =>
  (θ_run (Cert.Kernel.defs (F := Bits)) _ _).mono (fun _ h c => (h c).2) (Cert.Kernel.Copy.run_main (F := Bits) m ρ)

/-- So does the idealized kernel. -/
theorem frame_kernelIdeal : Cert.frame_KernelIdeal := fun m ρ _ =>
  (θ_run (Cert.KernelIdeal.defs (F := Ideal)) _ _).mono (fun _ h c => (h c).2) (Cert.KernelIdeal.Copy.run_main (F := Ideal) m ρ)

/-- And the reference. -/
theorem frame_referenceIdeal : Cert.frame_ReferenceIdeal := fun m ρ _ =>
  (θ_run (Cert.ReferenceIdeal.defs (F := Ideal)) _ _).mono (fun _ h c => (h c).2) (Cert.ReferenceIdeal.RefRun.run m ρ)

/-- The idealization rewrote nothing. -/
theorem preserves : Cert.preserves_Kernel_KernelIdeal := trivial

/-- The kernel's result is the reshape of the table, the reference's the table's rows under a leading unit axis: one
    function of the table (`Cert.Spec.shapeCast_rows3`). -/
theorem algebraic : Cert.algebraic_KernelIdeal_ReferenceIdeal := by
  intro m ρ m' ρ' _ hagree
  refine ⟨fun c => Cert.KernelIdeal.Copy.resOf m c, Cert.KernelIdeal.Copy.run_main (F := Ideal) m ρ, ?_⟩
  refine (θ_run (Cert.ReferenceIdeal.defs (F := Ideal)) _ _).mono (fun _ h c => ⟨(h c).1.trans ?_, (h c).2⟩)
    (Cert.ReferenceIdeal.RefRun.run m' ρ')
  rw [hagree c]
  exact ((Cert.KernelIdeal.Copy.resOf_eq m c).trans (Cert.Spec.shapeCast_rows3 _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
